-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v59) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S200000 : Shape := ⟨1, ![200000]⟩
abbrev S150000 : Shape := ⟨1, ![150000]⟩
abbrev S150000x128 : Shape := ⟨2, ![150000, 128]⟩
abbrev S128 : Shape := ⟨1, ![128]⟩
abbrev S384x512 : Shape := ⟨2, ![384, 512]⟩
abbrev S384x128 : Shape := ⟨2, ![384, 128]⟩
abbrev S384 : Shape := ⟨1, ![384]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S150000x128 : S_.BroadcastsInDim S150000x128 (![] : Fin 0 → Fin S150000x128.rank)
  reducesTo_S150000x128_S_d0_1 : S150000x128.ReducesTo [0, 1] S_
  bcast_S_S128 : S_.BroadcastsInDim S128 (![] : Fin 0 → Fin S128.rank)
  reducesTo_S128_S_d0 : S128.ReducesTo [0] S_
  bcast_S_S384x512 : S_.BroadcastsInDim S384x512 (![] : Fin 0 → Fin S384x512.rank)
  reducesTo_S384x512_S_d0_1 : S384x512.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part2 {F : FTy → Type} [FloatOps F] (main_arg11 : FVec F S384 .f32) (main_v33 : IVec S_ 1) : IVec S_ 1 :=
  let main_v34 : FVec F S384 .f32 := Host.absf main_arg11
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  main_v38

def fn_part1 {F : FTy → Type} [FloatOps F] (main_arg8 : FVec F S384x512 .f32) (main_arg9 : FVec F S384x128 .f32) (main_arg10 : FVec F S384 .f32) (main_arg11 : FVec F S384 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S384x512 .f32 := Host.absf main_arg8
  let main_cst_6 : FVec F S_ .f32 := constant S_ .f32 0x7F800000#32
  let main_v20 : FVec F S384x512 .f32 := broadcastInDim S384x512 ![] bcast_S_S384x512 main_cst_6
  let main_v21 : IVec S384x512 1 := cmpf .olt main_v19 main_v20
  let main_c_7 : IVec S_ 1 := constantI S_ 1 1#1
  let main_v22 : IVec S_ 1 := (fun x v => Host.reduce IntOp.andi x v reducesTo_S384x512_S_d0_1 h_S_) main_v21 main_c_7
  let main_v23 : IVec S_ 1 := andi main_v18 main_v22
  let main_v24 : FVec F S384x128 .f32 := Host.absf main_arg9
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384 .f32 := Host.absf main_arg10
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg11 main_v33

def fn {F : FTy → Type} [FloatOps F] (main_arg0 : FVec F S200000x128 .f32) (main_arg1 : IVec S200000 32) (main_arg2 : IVec S150000 32) (main_arg3 : IVec S150000 32) (main_arg4 : IVec S150000 32) (main_arg5 : FVec F S150000x128 .f32) (main_arg6 : FVec F S128 .f32) (main_arg7 : FVec F S128 .f32) (main_arg8 : FVec F S384x512 .f32) (main_arg9 : FVec F S384x128 .f32) (main_arg10 : FVec F S384 .f32) (main_arg11 : FVec F S384 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S150000x128 .f32 := Host.absf main_arg5
  let main_cst_0 : FVec F S_ .f32 := constant S_ .f32 0x7F800000#32
  let main_v5 : FVec F S150000x128 .f32 := broadcastInDim S150000x128 ![] bcast_S_S150000x128 main_cst_0
  let main_v6 : IVec S150000x128 1 := cmpf .olt main_v4 main_v5
  let main_c_1 : IVec S_ 1 := constantI S_ 1 1#1
  let main_v7 : IVec S_ 1 := (fun x v => Host.reduce IntOp.andi x v reducesTo_S150000x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_v13 main_v16
-- ==== Kernel.lean ====
abbrev S200000x128 : Shape := ⟨2, ![200000, 128]⟩
abbrev S200000 : Shape := ⟨1, ![200000]⟩
abbrev S150000 : Shape := ⟨1, ![150000]⟩
abbrev S150000x128 : Shape := ⟨2, ![150000, 128]⟩
abbrev S128 : Shape := ⟨1, ![128]⟩
abbrev S384x512 : Shape := ⟨2, ![384, 512]⟩
abbrev S384x128 : Shape := ⟨2, ![384, 128]⟩
abbrev S384 : Shape := ⟨1, ![384]⟩
abbrev S_ : Shape := ⟨0, ![]⟩
abbrev S150000x1 : Shape := ⟨2, ![150000, 1]⟩
abbrev S1x128 : Shape := ⟨2, ![1, 128]⟩
abbrev S300000x512 : Shape := ⟨2, ![300000, 512]⟩
abbrev S3000x128 : Shape := ⟨2, ![3000, 128]⟩
abbrev S3000x1 : Shape := ⟨2, ![3000, 1]⟩
abbrev S3000x512 : Shape := ⟨2, ![3000, 512]⟩
abbrev S300000 : Shape := ⟨1, ![300000]⟩
abbrev S200000x512 : Shape := ⟨2, ![200000, 512]⟩
abbrev S300000x1 : Shape := ⟨2, ![300000, 1]⟩
abbrev S200000x1 : Shape := ⟨2, ![200000, 1]⟩
abbrev S512x384 : Shape := ⟨2, ![512, 384]⟩
abbrev S128x384 : Shape := ⟨2, ![128, 384]⟩
abbrev S2000x512 : Shape := ⟨2, ![2000, 512]⟩
abbrev S2000x1 : Shape := ⟨2, ![2000, 1]⟩
abbrev S2000x128 : Shape := ⟨2, ![2000, 128]⟩
abbrev S2000x384 : Shape := ⟨2, ![2000, 384]⟩
abbrev S1x384 : Shape := ⟨2, ![1, 384]⟩

abbrev nBuf : Space → Nat
  | .hbm => 86
  | .vmem => 26
  | .smem => 0
  | _ => 0

abbrev bufTy : (tb : Table) → Fin (tcTables nBuf tb) → BufTy
  | .hbm, ⟨0, _⟩ => ⟨S200000x128, .f32⟩
  | .hbm, ⟨1, _⟩ => ⟨S200000, .i32⟩
  | .hbm, ⟨2, _⟩ => ⟨S150000, .i32⟩
  | .hbm, ⟨3, _⟩ => ⟨S150000, .i32⟩
  | .hbm, ⟨4, _⟩ => ⟨S150000, .i32⟩
  | .hbm, ⟨5, _⟩ => ⟨S150000x128, .f32⟩
  | .hbm, ⟨6, _⟩ => ⟨S128, .f32⟩
  | .hbm, ⟨7, _⟩ => ⟨S128, .f32⟩
  | .hbm, ⟨8, _⟩ => ⟨S384x512, .f32⟩
  | .hbm, ⟨9, _⟩ => ⟨S384x128, .f32⟩
  | .hbm, ⟨10, _⟩ => ⟨S384, .f32⟩
  | .hbm, ⟨11, _⟩ => ⟨S384, .f32⟩
  | .hbm, ⟨12, _⟩ => ⟨S_, .i32⟩
  | .hbm, ⟨13, _⟩ => ⟨S150000, .i32⟩
  | .hbm, ⟨14, _⟩ => ⟨S150000, .i1⟩
  | .hbm, ⟨15, _⟩ => ⟨S_, .i32⟩
  | .hbm, ⟨16, _⟩ => ⟨S150000, .i32⟩
  | .hbm, ⟨17, _⟩ => ⟨S150000, .i32⟩
  | .hbm, ⟨18, _⟩ => ⟨S150000, .i32⟩
  | .hbm, ⟨19, _⟩ => ⟨S150000x1, .i32⟩
  | .hbm, ⟨20, _⟩ => ⟨S150000x128, .f32⟩
  | .hbm, ⟨21, _⟩ => ⟨S_, .i32⟩
  | .hbm, ⟨22, _⟩ => ⟨S150000, .i32⟩
  | .hbm, ⟨23, _⟩ => ⟨S150000, .i1⟩
  | .hbm, ⟨24, _⟩ => ⟨S_, .i32⟩
  | .hbm, ⟨25, _⟩ => ⟨S150000, .i32⟩
  | .hbm, ⟨26, _⟩ => ⟨S150000, .i32⟩
  | .hbm, ⟨27, _⟩ => ⟨S150000, .i32⟩
  | .hbm, ⟨28, _⟩ => ⟨S150000x1, .i32⟩
  | .hbm, ⟨29, _⟩ => ⟨S150000x128, .f32⟩
  | .hbm, ⟨30, _⟩ => ⟨S_, .i32⟩
  | .hbm, ⟨31, _⟩ => ⟨S150000, .i32⟩
  | .hbm, ⟨32, _⟩ => ⟨S150000, .i1⟩
  | .hbm, ⟨33, _⟩ => ⟨S_, .i32⟩
  | .hbm, ⟨34, _⟩ => ⟨S150000, .i32⟩
  | .hbm, ⟨35, _⟩ => ⟨S150000, .i32⟩
  | .hbm, ⟨36, _⟩ => ⟨S150000, .i32⟩
  | .hbm, ⟨37, _⟩ => ⟨S150000x1, .i32⟩
  | .hbm, ⟨38, _⟩ => ⟨S150000, .i32⟩
  | .hbm, ⟨39, _⟩ => ⟨S_, .i32⟩
  | .hbm, ⟨40, _⟩ => ⟨S150000, .i32⟩
  | .hbm, ⟨41, _⟩ => ⟨S150000, .i1⟩
  | .hbm, ⟨42, _⟩ => ⟨S_, .i32⟩
  | .hbm, ⟨43, _⟩ => ⟨S150000, .i32⟩
  | .hbm, ⟨44, _⟩ => ⟨S150000, .i32⟩
  | .hbm, ⟨45, _⟩ => ⟨S150000, .i32⟩
  | .hbm, ⟨46, _⟩ => ⟨S150000x1, .i32⟩
  | .hbm, ⟨47, _⟩ => ⟨S150000, .i32⟩
  | .hbm, ⟨48, _⟩ => ⟨S150000, .i32⟩
  | .hbm, ⟨49, _⟩ => ⟨S150000, .f32⟩
  | .hbm, ⟨50, _⟩ => ⟨S150000x1, .f32⟩
  | .hbm, ⟨51, _⟩ => ⟨S150000, .i32⟩
  | .hbm, ⟨52, _⟩ => ⟨S150000, .f32⟩
  | .hbm, ⟨53, _⟩ => ⟨S150000x1, .f32⟩
  | .hbm, ⟨54, _⟩ => ⟨S1x128, .f32⟩
  | .hbm, ⟨55, _⟩ => ⟨S1x128, .f32⟩
  | .hbm, ⟨56, _⟩ => ⟨S300000x512, .f32⟩
  | .hbm, ⟨57, _⟩ => ⟨S300000, .i32⟩
  | .hbm, ⟨58, _⟩ => ⟨S300000, .i32⟩
  | .hbm, ⟨59, _⟩ => ⟨S_, .f32⟩
  | .hbm, ⟨60, _⟩ => ⟨S200000x512, .f32⟩
  | .hbm, ⟨61, _⟩ => ⟨S300000x1, .i32⟩
  | .hbm, ⟨62, _⟩ => ⟨S200000x512, .f32⟩
  | .hbm, ⟨63, _⟩ => ⟨S_, .f32⟩
  | .hbm, ⟨64, _⟩ => ⟨S300000, .f32⟩
  | .hbm, ⟨65, _⟩ => ⟨S_, .f32⟩
  | .hbm, ⟨66, _⟩ => ⟨S200000, .f32⟩
  | .hbm, ⟨67, _⟩ => ⟨S300000x1, .i32⟩
  | .hbm, ⟨68, _⟩ => ⟨S200000, .f32⟩
  | .hbm, ⟨69, _⟩ => ⟨S200000x1, .f32⟩
  | .hbm, ⟨70, _⟩ => ⟨S512x384, .f32⟩
  | .hbm, ⟨71, _⟩ => ⟨S512x384, .bf16⟩
  | .hbm, ⟨72, _⟩ => ⟨S128x384, .f32⟩
  | .hbm, ⟨73, _⟩ => ⟨S128x384, .bf16⟩
  | .hbm, ⟨74, _⟩ => ⟨S200000x128, .f32⟩
  | .hbm, ⟨75, _⟩ => ⟨S_, .i32⟩
  | .hbm, ⟨76, _⟩ => ⟨S200000, .i32⟩
  | .hbm, ⟨77, _⟩ => ⟨S_, .i32⟩
  | .hbm, ⟨78, _⟩ => ⟨S300000, .i32⟩
  | .hbm, ⟨79, _⟩ => ⟨S300000, .i1⟩
  | .hbm, ⟨80, _⟩ => ⟨S_, .i32⟩
  | .hbm, ⟨81, _⟩ => ⟨S300000, .i32⟩
  | .hbm, ⟨82, _⟩ => ⟨S300000, .i32⟩
  | .hbm, ⟨83, _⟩ => ⟨S300000, .i32⟩
  | .hbm, ⟨84, _⟩ => ⟨S300000x1, .i32⟩
  | .hbm, ⟨85, _⟩ => ⟨S200000, .i32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x128, .f32⟩
  | .local _ .vmem, ⟨5, _⟩ => ⟨S3000x128, .f32⟩
  | .local _ .vmem, ⟨6, _⟩ => ⟨S3000x1, .f32⟩
  | .local _ .vmem, ⟨7, _⟩ => ⟨S3000x1, .f32⟩
  | .local _ .vmem, ⟨8, _⟩ => ⟨S3000x1, .f32⟩
  | .local _ .vmem, ⟨9, _⟩ => ⟨S3000x1, .f32⟩
  | .local _ .vmem, ⟨10, _⟩ => ⟨S1x128, .f32⟩
  | .local _ .vmem, ⟨11, _⟩ => ⟨S1x128, .f32⟩
  | .local _ .vmem, ⟨12, _⟩ => ⟨S3000x512, .f32⟩
  | .local _ .vmem, ⟨13, _⟩ => ⟨S3000x512, .f32⟩
  | .local _ .vmem, ⟨14, _⟩ => ⟨S2000x512, .f32⟩
  | .local _ .vmem, ⟨15, _⟩ => ⟨S2000x512, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S512x384, .bf16⟩
  | .local _ .vmem, ⟨21, _⟩ => ⟨S128x384, .bf16⟩
  | .local _ .vmem, ⟨22, _⟩ => ⟨S384, .f32⟩
  | .local _ .vmem, ⟨23, _⟩ => ⟨S384, .f32⟩
  | .local _ .vmem, ⟨24, _⟩ => ⟨S2000x128, .f32⟩
  | .local _ .vmem, ⟨25, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![50, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg1 c50_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S3000x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x384 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  shapeCasts_S128_S1x128 : S128.ShapeCasts S1x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S3000x1_S3000x1_0_0 : ∀ a, (![0, 0] : Fin 2 → Nat) a + S3000x1.size a ≤ S3000x1.size a
  h_S3000x1 : 0 < S3000x1.numel
  shapeCasts_S3000x1_S3000x1 : S3000x1.ShapeCasts S3000x1
  broadcasts_S3000x1_S3000x128 : S3000x1.Broadcasts S3000x128
  broadcasts_S1x128_S3000x128 : S1x128.Broadcasts S3000x128
  inb_S3000x512_S3000x128_0_0 : ∀ a, (![0, 0] : Fin 2 → Nat) a + S3000x128.size a ≤ S3000x512.size a
  inb_S3000x512_S3000x128_0_128 : ∀ a, (![0, 128] : Fin 2 → Nat) a + S3000x128.size a ≤ S3000x512.size a
  inb_S3000x512_S3000x128_0_256 : ∀ a, (![0, 256] : Fin 2 → Nat) a + S3000x128.size a ≤ S3000x512.size a
  inb_S3000x512_S3000x128_0_384 : ∀ a, (![0, 384] : Fin 2 → Nat) a + S3000x128.size a ≤ S3000x512.size a
  concatenates_S150000_S150000_S300000_d0 : Shape.Concatenates [S150000, S150000] S300000 0
  bcast_S_S200000x512 : S_.BroadcastsInDim S200000x512 (![] : Fin 0 → Fin S200000x512.rank)
  bcast_S300000_S300000x1_0 : S300000.BroadcastsInDim S300000x1 (![0] : Fin 1 → Fin S300000x1.rank)
  bcast_S_S300000 : S_.BroadcastsInDim S300000 (![] : Fin 0 → Fin S300000.rank)
  bcast_S_S200000 : S_.BroadcastsInDim S200000 (![] : Fin 0 → Fin S200000.rank)
  bcast_S200000_S200000x1_0 : S200000.BroadcastsInDim S200000x1 (![0] : Fin 1 → Fin S200000x1.rank)
  transposes_S384x512_S512x384_1_0 : S384x512.Transposes [1, 0] S512x384
  bitsLt_bf16_f32 : FTy.bits .bf16 < FTy.bits .f32
  transposes_S384x128_S128x384_1_0 : S384x128.Transposes [1, 0] S128x384
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  inb_S2000x128_S2000x128_0_0 : ∀ a, (![0, 0] : Fin 2 → Nat) a + S2000x128.size a ≤ S2000x128.size a
  h_S2000x128 : 0 < S2000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  gather_S200000x128_S150000x1_S150000x128_1_0_n_n_0_1_1128_wf : GatherDims.WF S200000x128 S150000x1 S150000x128 [1] [0] [] [0] [] 1 ![1, 128]
  gather_S200000_S150000x1_S150000_n_0_n_n_0_1_1_wf : GatherDims.WF S200000 S150000x1 S150000 [] [0] [] [0] [] 1 ![1]
  scatter_S200000x512_S300000x1_S300000x512_1_0_0_1_wf : ScatterDims.WF S200000x512 S300000x1 S300000x512 [1] [0] [0] 1
  scatter_S200000_S300000x1_S300000_n_0_0_1_wf : ScatterDims.WF S200000 S300000x1 S300000 [] [0] [0] 1
  dot_S2000x512_S512x384_S2000x384_1_0_0_1_n_n_wf : DotDims.WF S2000x512 S512x384 S2000x384 [1] [0] [0] [1] [] []
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S150000x128.size a
  hwx0_0 : ∀ i : grid0.Coords, EltTy.bits .f32 = 32 ∨ (Rect.block (s := S150000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S150000x128.size a
  hwx0_1 : ∀ i : grid0.Coords, EltTy.bits .f32 = 32 ∨ (Rect.block (s := S150000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S150000x128.size a
  hwx0_2 : ∀ i : grid0.Coords, EltTy.bits .f32 = 32 ∨ (Rect.block (s := S150000x128) S3000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x1.size a ≤ S150000x1.size a
  hwx0_3 : ∀ i : grid0.Coords, EltTy.bits .f32 = 32 ∨ (Rect.block (s := S150000x1) S3000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x1.size a ≤ S150000x1.size a
  hwx0_4 : ∀ i : grid0.Coords, EltTy.bits .f32 = 32 ∨ (Rect.block (s := S150000x1) S3000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3000x512.size a ≤ S300000x512.size a
  hwx0_7 : ∀ i : grid0.Coords, EltTy.bits .f32 = 32 ∨ (Rect.block (s := S300000x512) S3000x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S200000x512.size a
  hwx1_0 : ∀ i : grid1.Coords, EltTy.bits .f32 = 32 ∨ (Rect.block (s := S200000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S200000x1.size a
  hwx1_1 : ∀ i : grid1.Coords, EltTy.bits .f32 = 32 ∨ (Rect.block (s := S200000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S200000x128.size a
  hwx1_2 : ∀ i : grid1.Coords, EltTy.bits .f32 = 32 ∨ (Rect.block (s := S200000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x384.size a ≤ S512x384.size a
  hwx1_3 : ∀ i : grid1.Coords, EltTy.bits .bf16 = 32 ∨ (Rect.block (s := S512x384) S512x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x384.size a ≤ S128x384.size a
  hwx1_4 : ∀ i : grid1.Coords, EltTy.bits .bf16 = 32 ∨ (Rect.block (s := S128x384) S128x384.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S384.size a ≤ S384.size a
  hwx1_5 : ∀ i : grid1.Coords, EltTy.bits .f32 = 32 ∨ (Rect.block (s := S384) S384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S384.size a ≤ S384.size a
  hwx1_6 : ∀ i : grid1.Coords, EltTy.bits .f32 = 32 ∨ (Rect.block (s := S384) S384.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S200000x128.size a
  hwx1_7 : ∀ i : grid1.Coords, EltTy.bits .f32 = 32 ∨ (Rect.block (s := S200000x128) S2000x128.size (cc1_transform_7 i) (hinb1_7 i)).WholeWords (EltTy.packing .f32)

variable [Facts₀]

def gather_S200000x128_S150000x1_S150000x128_1_0_n_n_0_1_1128 : GatherDims S200000x128 S150000x1 S150000x128 where
  offsetDims := [1]
  collapsedSliceDims := [0]
  operandBatchingDims := []
  startIndicesBatchingDims := []
  startIndexMap := [0]
  indexVectorDim := 1
  sliceSizes := ![1, 128]
  wf := gather_S200000x128_S150000x1_S150000x128_1_0_n_n_0_1_1128_wf
def gather_S200000_S150000x1_S150000_n_0_n_n_0_1_1 : GatherDims S200000 S150000x1 S150000 where
  offsetDims := []
  collapsedSliceDims := [0]
  operandBatchingDims := []
  startIndicesBatchingDims := []
  startIndexMap := [0]
  indexVectorDim := 1
  sliceSizes := ![1]
  wf := gather_S200000_S150000x1_S150000_n_0_n_n_0_1_1_wf
def scatter_S200000x512_S300000x1_S300000x512_1_0_0_1 : ScatterDims S200000x512 S300000x1 S300000x512 where
  updateWindowDims := [1]
  insertedWindowDims := [0]
  scatterDimsToOperandDims := [0]
  indexVectorDim := 1
  wf := scatter_S200000x512_S300000x1_S300000x512_1_0_0_1_wf
def scatter_S200000_S300000x1_S300000_n_0_0_1 : ScatterDims S200000 S300000x1 S300000 where
  updateWindowDims := []
  insertedWindowDims := [0]
  scatterDimsToOperandDims := [0]
  indexVectorDim := 1
  wf := scatter_S200000_S300000x1_S300000_n_0_0_1_wf
def dot_S2000x512_S512x384_S2000x384_1_0_0_1_n_n : DotDims S2000x512 S512x384 S2000x384 where
  lhsContracting := [1]
  rhsContracting := [0]
  lhsNonContracting := [0]
  rhsNonContracting := [1]
  lhsBatch := []
  rhsBatch := []
  wf := dot_S2000x512_S512x384_S2000x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v6) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S3000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v33) S3000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S3000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S512x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S200000x128 : Shape := ⟨2, ![200000, 128]⟩
abbrev S200000 : Shape := ⟨1, ![200000]⟩
abbrev S150000 : Shape := ⟨1, ![150000]⟩
abbrev S150000x128 : Shape := ⟨2, ![150000, 128]⟩
abbrev S128 : Shape := ⟨1, ![128]⟩
abbrev S384x512 : Shape := ⟨2, ![384, 512]⟩
abbrev S384x128 : Shape := ⟨2, ![384, 128]⟩
abbrev S384 : Shape := ⟨1, ![384]⟩
abbrev S_ : Shape := ⟨0, ![]⟩
abbrev S150000x1 : Shape := ⟨2, ![150000, 1]⟩
abbrev S1x128 : Shape := ⟨2, ![1, 128]⟩
abbrev S150000x512 : Shape := ⟨2, ![150000, 512]⟩
abbrev S300000 : Shape := ⟨1, ![300000]⟩
abbrev S300000x512 : Shape := ⟨2, ![300000, 512]⟩
abbrev S200000x512 : Shape := ⟨2, ![200000, 512]⟩
abbrev S300000x1 : Shape := ⟨2, ![300000, 1]⟩
abbrev S200000x1 : Shape := ⟨2, ![200000, 1]⟩
abbrev S512x384 : Shape := ⟨2, ![512, 384]⟩
abbrev S200000x384 : Shape := ⟨2, ![200000, 384]⟩
abbrev S1x384 : Shape := ⟨2, ![1, 384]⟩
abbrev S128x384 : Shape := ⟨2, ![128, 384]⟩

abbrev nBuf : Space → Nat
  | .hbm => 163
  | .vmem => 0
  | .smem => 0
  | _ => 0

abbrev hbmTy0_0 (i : Nat) : BufTy := match i % 128 with
  | 0 => ⟨S200000x128, .f32⟩
  | 1 => ⟨S200000, .i32⟩
  | 2 => ⟨S150000, .i32⟩
  | 3 => ⟨S150000, .i32⟩
  | 4 => ⟨S150000, .i32⟩
  | 5 => ⟨S150000x128, .f32⟩
  | 6 => ⟨S128, .f32⟩
  | 7 => ⟨S128, .f32⟩
  | 8 => ⟨S384x512, .f32⟩
  | 9 => ⟨S384x128, .f32⟩
  | 10 => ⟨S384, .f32⟩
  | 11 => ⟨S384, .f32⟩
  | 12 => ⟨S_, .i32⟩
  | 13 => ⟨S150000, .i32⟩
  | 14 => ⟨S150000, .i1⟩
  | 15 => ⟨S_, .i32⟩
  | 16 => ⟨S150000, .i32⟩
  | 17 => ⟨S150000, .i32⟩
  | 18 => ⟨S150000, .i32⟩
  | 19 => ⟨S150000x1, .i32⟩
  | 20 => ⟨S150000, .i32⟩
  | 21 => ⟨S150000, .i32⟩
  | 22 => ⟨S150000, .f32⟩
  | 23 => ⟨S150000x1, .f32⟩
  | 24 => ⟨S1x128, .f32⟩
  | 25 => ⟨S150000x128, .f32⟩
  | 26 => ⟨S150000x128, .f32⟩
  | 27 => ⟨S150000x128, .f32⟩
  | 28 => ⟨S1x128, .f32⟩
  | 29 => ⟨S150000x128, .f32⟩
  | 30 => ⟨S150000x128, .f32⟩
  | 31 => ⟨S150000x128, .f32⟩
  | 32 => ⟨S_, .i32⟩
  | 33 => ⟨S150000, .i32⟩
  | 34 => ⟨S150000, .i1⟩
  | 35 => ⟨S_, .i32⟩
  | 36 => ⟨S150000, .i32⟩
  | 37 => ⟨S150000, .i32⟩
  | 38 => ⟨S150000, .i32⟩
  | 39 => ⟨S150000x1, .i32⟩
  | 40 => ⟨S150000x128, .f32⟩
  | 41 => ⟨S_, .i32⟩
  | 42 => ⟨S150000, .i32⟩
  | 43 => ⟨S150000, .i1⟩
  | 44 => ⟨S_, .i32⟩
  | 45 => ⟨S150000, .i32⟩
  | 46 => ⟨S150000, .i32⟩
  | 47 => ⟨S150000, .i32⟩
  | 48 => ⟨S150000x1, .i32⟩
  | 49 => ⟨S150000x128, .f32⟩
  | 50 => ⟨S150000x512, .f32⟩
  | 51 => ⟨S_, .i32⟩
  | 52 => ⟨S150000, .i32⟩
  | 53 => ⟨S150000, .i1⟩
  | 54 => ⟨S_, .i32⟩
  | 55 => ⟨S150000, .i32⟩
  | 56 => ⟨S150000, .i32⟩
  | 57 => ⟨S150000, .i32⟩
  | 58 => ⟨S150000x1, .i32⟩
  | 59 => ⟨S150000, .i32⟩
  | 60 => ⟨S150000, .i32⟩
  | 61 => ⟨S150000, .f32⟩
  | 62 => ⟨S150000x1, .f32⟩
  | 63 => ⟨S1x128, .f32⟩
  | 64 => ⟨S150000x128, .f32⟩
  | 65 => ⟨S150000x128, .f32⟩
  | 66 => ⟨S150000x128, .f32⟩
  | 67 => ⟨S1x128, .f32⟩
  | 68 => ⟨S150000x128, .f32⟩
  | 69 => ⟨S150000x128, .f32⟩
  | 70 => ⟨S150000x128, .f32⟩
  | 71 => ⟨S_, .i32⟩
  | 72 => ⟨S150000, .i32⟩
  | 73 => ⟨S150000, .i1⟩
  | 74 => ⟨S_, .i32⟩
  | 75 => ⟨S150000, .i32⟩
  | 76 => ⟨S150000, .i32⟩
  | 77 => ⟨S150000, .i32⟩
  | 78 => ⟨S150000x1, .i32⟩
  | 79 => ⟨S150000x128, .f32⟩
  | 80 => ⟨S_, .i32⟩
  | 81 => ⟨S150000, .i32⟩
  | 82 => ⟨S150000, .i1⟩
  | 83 => ⟨S_, .i32⟩
  | 84 => ⟨S150000, .i32⟩
  | 85 => ⟨S150000, .i32⟩
  | 86 => ⟨S150000, .i32⟩
  | 87 => ⟨S150000x1, .i32⟩
  | 88 => ⟨S150000x128, .f32⟩
  | 89 => ⟨S150000x512, .f32⟩
  | 90 => ⟨S300000, .i32⟩
  | 91 => ⟨S300000x512, .f32⟩
  | 92 => ⟨S300000, .i32⟩
  | 93 => ⟨S_, .f32⟩
  | 94 => ⟨S200000x512, .f32⟩
  | 95 => ⟨S300000x1, .i32⟩
  | 96 => ⟨S200000x512, .f32⟩
  | 97 => ⟨S_, .f32⟩
  | 98 => ⟨S300000, .f32⟩
  | 99 => ⟨S_, .f32⟩
  | 100 => ⟨S200000, .f32⟩
  | 101 => ⟨S300000x1, .i32⟩
  | 102 => ⟨S200000, .f32⟩
  | 103 => ⟨S_, .f32⟩
  | 104 => ⟨S200000, .f32⟩
  | 105 => ⟨S200000, .f32⟩
  | 106 => ⟨S200000x1, .f32⟩
  | 107 => ⟨S200000x512, .f32⟩
  | 108 => ⟨S200000x512, .f32⟩
  | 109 => ⟨S512x384, .f32⟩
  | 110 => ⟨S200000x384, .f32⟩
  | 111 => ⟨S1x384, .f32⟩
  | 112 => ⟨S200000x384, .f32⟩
  | 113 => ⟨S200000x384, .f32⟩
  | 114 => ⟨S128x384, .f32⟩
  | 115 => ⟨S200000x384, .f32⟩
  | 116 => ⟨S1x384, .f32⟩
  | 117 => ⟨S200000x384, .f32⟩
  | 118 => ⟨S200000x384, .f32⟩
  | 119 => ⟨S200000x128, .f32⟩
  | 120 => ⟨S200000x128, .f32⟩
  | 121 => ⟨S200000x128, .f32⟩
  | 122 => ⟨S200000x128, .f32⟩
  | 123 => ⟨S200000x128, .f32⟩
  | 124 => ⟨S200000x128, .f32⟩
  | 125 => ⟨S200000x128, .f32⟩
  | 126 => ⟨S200000x128, .f32⟩
  | 127 => ⟨S200000x128, .f32⟩
  | _ => ⟨S200000x128, .f32⟩

abbrev hbmTy0_1 (i : Nat) : BufTy := match i % 128 with
  | 0 => ⟨S_, .f32⟩
  | 1 => ⟨S200000x128, .f32⟩
  | 2 => ⟨S200000x128, .f32⟩
  | 3 => ⟨S_, .f32⟩
  | 4 => ⟨S200000x128, .f32⟩
  | 5 => ⟨S200000x128, .f32⟩
  | 6 => ⟨S200000x128, .f32⟩
  | 7 => ⟨S200000x128, .f32⟩
  | 8 => ⟨S200000x128, .f32⟩
  | 9 => ⟨S_, .f32⟩
  | 10 => ⟨S200000x128, .f32⟩
  | 11 => ⟨S200000x128, .f32⟩
  | 12 => ⟨S_, .f32⟩
  | 13 => ⟨S200000x128, .f32⟩
  | 14 => ⟨S200000x128, .f32⟩
  | 15 => ⟨S200000x128, .f32⟩
  | 16 => ⟨S200000x128, .f32⟩
  | 17 => ⟨S200000x128, .f32⟩
  | 18 => ⟨S_, .f32⟩
  | 19 => ⟨S200000x128, .f32⟩
  | 20 => ⟨S200000x128, .f32⟩
  | 21 => ⟨S200000x128, .f32⟩
  | 22 => ⟨S200000x128, .f32⟩
  | 23 => ⟨S200000x128, .f32⟩
  | 24 => ⟨S_, .i32⟩
  | 25 => ⟨S200000, .i32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S200000, .i32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_3 : Ref sig .tc := ⟨.hbm, 41, rfl⟩
abbrev main_v25 : Ref sig .tc := ⟨.hbm, 42, rfl⟩
abbrev main_v26 : Ref sig .tc := ⟨.hbm, 43, rfl⟩
abbrev main_c_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_9 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_14 : Ref sig .tc := ⟨.hbm, 128, rfl⟩
abbrev main_v100 : Ref sig .tc := ⟨.hbm, 129, rfl⟩
abbrev main_v101 : Ref sig .tc := ⟨.hbm, 130, rfl⟩
abbrev main_cst_15 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_16 : Ref sig .tc := ⟨.hbm, 137, rfl⟩
abbrev main_v107 : Ref sig .tc := ⟨.hbm, 138, rfl⟩
abbrev main_v108 : Ref sig .tc := ⟨.hbm, 139, rfl⟩
abbrev main_cst_17 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_18 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_19 : Ref sig .tc := ⟨.hbm, 152, rfl⟩
abbrev main_v119 : Ref sig .tc := ⟨.hbm, 153, rfl⟩
abbrev main_c_20 : Ref sig .tc := ⟨.hbm, 154, rfl⟩
abbrev main_v120 : Ref sig .tc := ⟨.hbm, 155, rfl⟩
abbrev main_v121 : Ref sig .tc := ⟨.hbm, 156, rfl⟩
abbrev main_c_21 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩

abbrev nD : Nat := 1
abbrev τ : Topo := Topo.v7x

variable {F : FTy → Type} [FloatOps F]

class Facts₀ : Prop where
  bcast_S_S150000 : S_.BroadcastsInDim S150000 (![] : Fin 0 → Fin S150000.rank)
  bcast_S150000_S150000x1_0 : S150000.BroadcastsInDim S150000x1 (![0] : Fin 1 → Fin S150000x1.rank)
  bcast_S128_S1x128_1 : S128.BroadcastsInDim S1x128 (![1] : Fin 1 → Fin S1x128.rank)
  bcast_S150000x1_S150000x128_0_1 : S150000x1.BroadcastsInDim S150000x128 (![0, 1] : Fin 2 → Fin S150000x128.rank)
  bcast_S1x128_S150000x128_0_1 : S1x128.BroadcastsInDim S150000x128 (![0, 1] : Fin 2 → Fin S150000x128.rank)
  concatenates_S150000x128_S150000x128_S150000x128_S150000x128_S150000x512_d1 : Shape.Concatenates [S150000x128, S150000x128, S150000x128, S150000x128] S150000x512 1
  concatenates_S150000_S150000_S300000_d0 : Shape.Concatenates [S150000, S150000] S300000 0
  concatenates_S150000x512_S150000x512_S300000x512_d0 : Shape.Concatenates [S150000x512, S150000x512] S300000x512 0
  bcast_S_S200000x512 : S_.BroadcastsInDim S200000x512 (![] : Fin 0 → Fin S200000x512.rank)
  bcast_S300000_S300000x1_0 : S300000.BroadcastsInDim S300000x1 (![0] : Fin 1 → Fin S300000x1.rank)
  bcast_S_S300000 : S_.BroadcastsInDim S300000 (![] : Fin 0 → Fin S300000.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x512_0_1 : S200000x1.BroadcastsInDim S200000x512 (![0, 1] : Fin 2 → Fin S200000x512.rank)
  transposes_S384x512_S512x384_1_0 : S384x512.Transposes [1, 0] S512x384
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  transposes_S384x128_S128x384_1_0 : S384x128.Transposes [1, 0] S128x384
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  bcast_S_S200000x128 : S_.BroadcastsInDim S200000x128 (![] : Fin 0 → Fin S200000x128.rank)
  gather_S200000_S150000x1_S150000_n_0_n_n_0_1_1_wf : GatherDims.WF S200000 S150000x1 S150000 [] [0] [] [0] [] 1 ![1]
  gather_S200000x128_S150000x1_S150000x128_1_0_n_n_0_1_1128_wf : GatherDims.WF S200000x128 S150000x1 S150000x128 [1] [0] [] [0] [] 1 ![1, 128]
  scatter_S200000x512_S300000x1_S300000x512_1_0_0_1_wf : ScatterDims.WF S200000x512 S300000x1 S300000x512 [1] [0] [0] 1
  scatter_S200000_S300000x1_S300000_n_0_0_1_wf : ScatterDims.WF S200000 S300000x1 S300000 [] [0] [0] 1
  dot_S200000x512_S512x384_S200000x384_1_0_0_1_n_n_wf : DotDims.WF S200000x512 S512x384 S200000x384 [1] [0] [0] [1] [] []
  dot_S200000x128_S128x384_S200000x384_1_0_0_1_n_n_wf : DotDims.WF S200000x128 S128x384 S200000x384 [1] [0] [0] [1] [] []

variable [Facts₀]

def gather_S200000_S150000x1_S150000_n_0_n_n_0_1_1 : GatherDims S200000 S150000x1 S150000 where
  offsetDims := []
  collapsedSliceDims := [0]
  operandBatchingDims := []
  startIndicesBatchingDims := []
  startIndexMap := [0]
  indexVectorDim := 1
  sliceSizes := ![1]
  wf := gather_S200000_S150000x1_S150000_n_0_n_n_0_1_1_wf
def gather_S200000x128_S150000x1_S150000x128_1_0_n_n_0_1_1128 : GatherDims S200000x128 S150000x1 S150000x128 where
  offsetDims := [1]
  collapsedSliceDims := [0]
  operandBatchingDims := []
  startIndicesBatchingDims := []
  startIndexMap := [0]
  indexVectorDim := 1
  sliceSizes := ![1, 128]
  wf := gather_S200000x128_S150000x1_S150000x128_1_0_n_n_0_1_1128_wf
def scatter_S200000x512_S300000x1_S300000x512_1_0_0_1 : ScatterDims S200000x512 S300000x1 S300000x512 where
  updateWindowDims := [1]
  insertedWindowDims := [0]
  scatterDimsToOperandDims := [0]
  indexVectorDim := 1
  wf := scatter_S200000x512_S300000x1_S300000x512_1_0_0_1_wf
def scatter_S200000_S300000x1_S300000_n_0_0_1 : ScatterDims S200000 S300000x1 S300000 where
  updateWindowDims := []
  insertedWindowDims := [0]
  scatterDimsToOperandDims := [0]
  indexVectorDim := 1
  wf := scatter_S200000_S300000x1_S300000_n_0_0_1_wf
def dot_S200000x512_S512x384_S200000x384_1_0_0_1_n_n : DotDims S200000x512 S512x384 S200000x384 where
  lhsContracting := [1]
  rhsContracting := [0]
  lhsNonContracting := [0]
  rhsNonContracting := [1]
  lhsBatch := []
  rhsBatch := []
  wf := dot_S200000x512_S512x384_S200000x384_1_0_0_1_n_n_wf
def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf

class Facts : Prop extends Facts₀ where

variable [Facts]
-- ==== Proof.KRun.lean ====
/-
  The idealized kernel's whole run, with its two results named.

  Every weakly fair execution of the program — host operations, the message kernel over its 50 × 2 grid, host operations
  (the two scatter-added sums), the gated-update kernel over its 100 blocks, and the closing host operations (the scattered
  maximum of the event times) — terminates without a fault, each argument array ends as it was launched, and each result
  buffer ends at the contents the fold of the program's segments assigns it: the last segment boundary's contents `W5`.
  The argument is the one that proves the frame: the launch rule over the five segments, with the final thread state
  "every unscoped buffer at `W5`" read at the two result buffers as well as at the arguments.
-/
import proofs.«117648_j63496796504572_2_alg».proof.Proof.FrameKernelIdealP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch rule's implicit arguments are found by unifying its conclusion with this one, which takes unfolding
-- plain definitions in a metavariable's type
set_option backward.isDefEq.respectTransparency.types false in
/-- The run: both results at the last boundary's contents, the arguments as launched. -/
theorem run_values : θ_run defs (onTc (τ := τ) (main (F := F))) ⟨m, fun _ => 0, ρ⟩ (fun r => ∀ c : Dev nD,
      r.2.mem ((c.tc : Thread nD τ).loc main_v51) = W5 m ρ c (Proc.devRef .tc main_v51)
      ∧ r.2.mem ((c.tc : Thread nD τ).loc main_v59) = W5 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v51 (by decide)), h c _ (mem_uc main_v59 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.KernelIdeal.Hand

end
-- ==== Proof.Stages.lean ====
/-
  What each buffer the two kernels read, and the second result, holds — as the host operations' values of the argument arrays.

  Before the first kernel the host gathers the memory rows and the last-update times of every event's source and
  destination, subtracts the gathered times from the event times and converts the differences to reals (two columns), and
  views the two time-encoding parameter vectors as one-row matrices. Between the kernels it scatter-adds the message rows
  and a row of ones at the concatenated source and destination indices (the summed messages and the counts), keeps the
  counts as a column, and transposes the two weight matrices. After the second kernel it scatters the maximum of the event
  times at the same indices. These are the same operations the reference applies, so each buffer is stated at the reference's
  own term of the arguments; the message matrix the first kernel leaves is carried as it is.
-/
import proofs.«117648_j63496796504572_2_alg».proof.Proof.FrameKernelIdealP
import proofs.«117648_j63496796504572_2_alg».proof.Proof.Gen.ReferenceIdeal.Read
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo Idealize.ShloMosaic.ValueIdx
open Cert.ReferenceIdeal.Read (val_main_v24 val_main_v31 val_main_v9 val_main_v42 val_main_v66 val_main_v68 val_main_v69 val_main_v70 val_main_v75 val_main_v81 val_main_v86 val_main_v126)

variable {F : FTy → Type} [FloatOps F]
variable (m : (ℓ : Loc nD τ sig) → Buf (Elt F) ℓ) (ρ : Dev nD → PrngReg)

/-- A buffer that no operation of a stretch of host operations writes keeps its contents. -/
macro "unwritten" : tactic =>
  `(tactic| (refine StableHlo.after_of_forall_not_mem _ _ (List.forall_iff_forall_mem.mp ?_)
             simp only [hostOps0, hostOps1, hostOps2, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The arguments at the first kernel's entry -/

theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0); unwritten
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5); unwritten

/-! ## The first kernel's other operands -/

/-- The memory rows of the events' sources. -/
theorem W1_v6 (c : Dev nD) : W1 m ρ c (Proc.devRef .tc main_v6)
    = val_main_v24 (F := F) (m ((c : Thread nD τ).loc main_arg0)) (m ((c : Thread nD τ).loc main_arg2)) := by
  show StableHlo.after hostOps0 (W0 m ρ c) (Proc.devRef .tc main_v6) = _
  after_results_simp; rfl
/-- The memory rows of the events' destinations. -/
theorem W1_v13 (c : Dev nD) : W1 m ρ c (Proc.devRef .tc main_v13)
    = val_main_v31 (F := F) (m ((c : Thread nD τ).loc main_arg0)) (m ((c : Thread nD τ).loc main_arg3)) := by
  show StableHlo.after hostOps0 (W0 m ρ c) (Proc.devRef .tc main_v13) = _
  after_results_simp; rfl
/-- The column of times since the sources' last updates. -/
theorem W1_v30 (c : Dev nD) : W1 m ρ c (Proc.devRef .tc main_v30)
    = val_main_v9 (F := F) (m ((c : Thread nD τ).loc main_arg1)) (m ((c : Thread nD τ).loc main_arg2)) (m ((c : Thread nD τ).loc main_arg4)) := by
  show StableHlo.after hostOps0 (W0 m ρ c) (Proc.devRef .tc main_v30) = _
  after_results_simp; rfl
/-- The column of times since the destinations' last updates. -/
theorem W1_v33 (c : Dev nD) : W1 m ρ c (Proc.devRef .tc main_v33)
    = val_main_v42 (F := F) (m ((c : Thread nD τ).loc main_arg1)) (m ((c : Thread nD τ).loc main_arg3)) (m ((c : Thread nD τ).loc main_arg4)) := by
  show StableHlo.after hostOps0 (W0 m ρ c) (Proc.devRef .tc main_v33) = _
  after_results_simp; rfl

/-- The first time-encoding parameter as a one-row matrix. -/
theorem W1_v34 (c : Dev nD) (q : Fin 128) :
    (W1 m ρ c (Proc.devRef .tc main_v34) : S1x128.Idx → Elt F .f32) (ix2 (0 : Fin 1) q)
      = (m ((c : Thread nD τ).loc main_arg6) : S128.Idx → Elt F .f32) (ix1 q) := by
  have e : W1 m ρ c (Proc.devRef .tc main_v34) = shapeCast S1x128 (m ((c : Thread nD τ).loc main_arg6)) shapeCasts_S128_S1x128 := by
    show StableHlo.after hostOps0 (W0 m ρ c) (Proc.devRef .tc main_v34) = _
    after_results_simp; rfl
  rw [e]; exact shapeCast_a_1a_apply _ _ _ _
/-- The second time-encoding parameter as a one-row matrix. -/
theorem W1_v35 (c : Dev nD) (q : Fin 128) :
    (W1 m ρ c (Proc.devRef .tc main_v35) : S1x128.Idx → Elt F .f32) (ix2 (0 : Fin 1) q)
      = (m ((c : Thread nD τ).loc main_arg7) : S128.Idx → Elt F .f32) (ix1 q) := by
  have e : W1 m ρ c (Proc.devRef .tc main_v35) = shapeCast S1x128 (m ((c : Thread nD τ).loc main_arg7)) shapeCasts_S128_S1x128 := by
    show StableHlo.after hostOps0 (W0 m ρ c) (Proc.devRef .tc main_v35) = _
    after_results_simp; rfl
  rw [e]; exact shapeCast_a_1a_apply _ _ _ _

/-! ## The arguments after the first kernel: no window of it writes one -/

theorem W1_arg (c : Dev nD) (b : Ref sig .tc)
    (h : StableHlo.after hostOps0 (W0 m ρ c) (Proc.devRef .tc b) = W0 m ρ c (Proc.devRef .tc b)) :
    W1 m ρ c (Proc.devRef .tc b) = W0 m ρ c (Proc.devRef .tc b) := h

theorem W2_arg0 (c : Dev nD) : W2 m ρ c (Proc.devRef .tc main_arg0) = m ((c : Thread nD τ).loc main_arg0) :=
  (W2_of_ne m ρ c main_arg0 (by decide)).trans (W1_arg0 m ρ c)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = W0 m ρ c (Proc.devRef .tc main_arg2); unwritten)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = W0 m ρ c (Proc.devRef .tc main_arg3); unwritten)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = W0 m ρ c (Proc.devRef .tc main_arg4); unwritten)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = W0 m ρ c (Proc.devRef .tc main_arg8); unwritten)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = W0 m ρ c (Proc.devRef .tc main_arg9); unwritten)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = W0 m ρ c (Proc.devRef .tc main_arg10); unwritten)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = W0 m ρ c (Proc.devRef .tc main_arg11); unwritten)

/-- The message matrix the first kernel leaves. -/
theorem W2_v36 (c : Dev nD) : W2 m ρ c (Proc.devRef .tc main_v36) = (dat0 (V1 m ρ) c).arrAt 7 cfg0.N := W2_arr m ρ c 7

/-! ## The second kernel's operands -/

/-- The summed messages: the message matrix scatter-added at the concatenated source and destination indices. -/
theorem W3_v41 (c : Dev nD) : W3 m ρ c (Proc.devRef .tc main_v41)
    = Host.scatterAdd Cert.ReferenceIdeal.scatter_S200000x512_S300000x1_S300000x512_1_0_0_1 (val_main_v69 (F := F))
        (val_main_v70 (F := F) (m ((c : Thread nD τ).loc main_arg2)) (m ((c : Thread nD τ).loc main_arg3)))
        ((dat0 (V1 m ρ) c).arrAt 7 cfg0.N) := by
  show StableHlo.after hostOps1 (W2 m ρ c) (Proc.devRef .tc main_v41) = _
  after_results_simp
  rw [W2_arg2, W2_arg3, W2_v36]; rfl
/-- The count column. -/
theorem W3_v46 (c : Dev nD) : W3 m ρ c (Proc.devRef .tc main_v46)
    = broadcastInDim S200000x1 ![0] bcast_S200000_S200000x1_0
        (val_main_v75 (F := F) (m ((c : Thread nD τ).loc main_arg2)) (m ((c : Thread nD τ).loc main_arg3))) := by
  show StableHlo.after hostOps1 (W2 m ρ c) (Proc.devRef .tc main_v46) = _
  after_results_simp
  rw [W2_arg2, W2_arg3]; rfl
theorem W3_arg0 (c : Dev nD) : W3 m ρ c (Proc.devRef .tc main_arg0) = m ((c : Thread nD τ).loc main_arg0) :=
  Eq.trans (by show StableHlo.after hostOps1 (W2 m ρ c) (Proc.devRef .tc main_arg0) = W2 m ρ c (Proc.devRef .tc main_arg0); unwritten)
    (W2_arg0 m ρ c)
theorem W3_arg10 (c : Dev nD) : W3 m ρ c (Proc.devRef .tc main_arg10) = m ((c : Thread nD τ).loc main_arg10) :=
  Eq.trans (by show StableHlo.after hostOps1 (W2 m ρ c) (Proc.devRef .tc main_arg10) = W2 m ρ c (Proc.devRef .tc main_arg10); unwritten)
    (W2_arg10 m ρ c)
theorem W3_arg11 (c : Dev nD) : W3 m ρ c (Proc.devRef .tc main_arg11) = m ((c : Thread nD τ).loc main_arg11) :=
  Eq.trans (by show StableHlo.after hostOps1 (W2 m ρ c) (Proc.devRef .tc main_arg11) = W2 m ρ c (Proc.devRef .tc main_arg11); unwritten)
    (W2_arg11 m ρ c)
/-- The transposed input weights, narrowed. -/
theorem W3_v48 (c : Dev nD) : W3 m ρ c (Proc.devRef .tc main_v48)
    = truncf .bf16 (val_main_v81 (F := F) (m ((c : Thread nD τ).loc main_arg8))) bitsLt_bf16_f32 := by
  show StableHlo.after hostOps1 (W2 m ρ c) (Proc.devRef .tc main_v48) = _
  after_results_simp
  rw [W2_arg8]; rfl
/-- The transposed hidden weights, narrowed. -/
theorem W3_v50 (c : Dev nD) : W3 m ρ c (Proc.devRef .tc main_v50)
    = truncf .bf16 (val_main_v86 (F := F) (m ((c : Thread nD τ).loc main_arg9))) bitsLt_bf16_f32 := by
  show StableHlo.after hostOps1 (W2 m ρ c) (Proc.devRef .tc main_v50) = _
  after_results_simp
  rw [W2_arg9]; rfl

/-! ## The results -/

/-- The concatenated source and destination indices, after the second kernel. -/
theorem W4_v37 (c : Dev nD) : W4 m ρ c (Proc.devRef .tc main_v37)
    = val_main_v66 (F := F) (m ((c : Thread nD τ).loc main_arg2)) (m ((c : Thread nD τ).loc main_arg3)) := by
  refine (W4_of_ne m ρ c main_v37 (by decide)).trans ?_
  show StableHlo.after hostOps1 (W2 m ρ c) (Proc.devRef .tc main_v37) = _
  after_results_simp
  rw [W2_arg2, W2_arg3]; rfl
/-- The event times twice over, after the second kernel. -/
theorem W4_v38 (c : Dev nD) : W4 m ρ c (Proc.devRef .tc main_v38)
    = val_main_v68 (F := F) (m ((c : Thread nD τ).loc main_arg4)) := by
  refine (W4_of_ne m ρ c main_v38 (by decide)).trans ?_
  show StableHlo.after hostOps1 (W2 m ρ c) (Proc.devRef .tc main_v38) = _
  after_results_simp
  rw [StableHlo.binary_result_ne]; rotate_left; decide
  rw [W2_arg4]; rfl

/-- The first result: the array the second kernel leaves. -/
theorem W5_v51 (c : Dev nD) : W5 m ρ c (Proc.devRef .tc main_v51) = (dat1 (V3 m ρ) c).arrAt 7 cfg1.N := by
  refine Eq.trans ?_ (W4_arr m ρ c 7)
  show StableHlo.after hostOps2 (W4 m ρ c) (Proc.devRef .tc main_v51) = W4 m ρ c (Proc.devRef .tc main_v51)
  unwritten
/-- The second result: the scattered maximum of the event times, the reference's own term. -/
theorem W5_v59 (c : Dev nD) : W5 m ρ c (Proc.devRef .tc main_v59)
    = val_main_v126 (F := F) (m ((c : Thread nD τ).loc main_arg2)) (m ((c : Thread nD τ).loc main_arg3)) (m ((c : Thread nD τ).loc main_arg4)) := by
  show StableHlo.after hostOps2 (W4 m ρ c) (Proc.devRef .tc main_v59) = _
  after_results_simp
  rw [W4_v37, W4_v38]; rfl

end Cert.KernelIdeal.Hand

end
-- ==== Proof.LibColumnLayout.lean ====
/-
  Two layout steps that every row-wise reduction kept as a column needs, read at an index.

  A sum along the rows of an [a, b] block is a vector of length a. Kept "as a column" it is viewed as an [a, 1] array, and to
  be combined with the block again it is spread over the b columns. Read at an entry, both steps only pick the row: the
  column at (i, u) is the vector at i, and the spread column at (p, c) is the column at (p, 0). Stated for any extents and
  any element type; no program is involved.
-/
import Idealize.ShloMosaic.Lib.ValueIdx
import Idealize.ShloMosaic.Lib.ValueLayout
import Idealize.ShloMosaic.Lib.Pipeline.Value

noncomputable section

namespace Cert.Lib.ColumnLayout

open Idealize.ShloMosaic Idealize.ShloMosaic.ValueIdx

/-- A vector of length `a` viewed as an `[a, 1]` column reads, at `(i, u)`, the vector at `i`, whatever the unit
    coordinate `u`: both positions are the `i`-th in row-major order. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over `b` columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout

end
-- ==== Proof.PayMsg.lean ====
/-
  The first kernel's arithmetic at one entry of its block.

  At direction `d` (the grid's second coordinate, 0 or 1) the body stores four 128-lane pieces: the first memory block when
  `d = 0` and the second otherwise; the other one of the two; the raw message; and the time encoding `cos (t · w + b)` of the
  first time column when `d = 0` and of the second otherwise, the column spread over the lanes and the one-row parameters over
  the rows.
-/
import proofs.«117648_j63496796504572_2_alg».proof.Proof.Gen.KernelIdeal.Skeleton
import proofs.«117648_j63496796504572_2_alg».proof.Proof.LibColumnLayout
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The direction coordinate is 0 or 1. -/
theorem dir_lt (i : grid0.Coords) : (i 1).val < 2 := (i 1).isLt

/-- A cosine at an entry. -/
theorem cos_apply {s : Shape} (x : FVec Ideal s .f32) (j : s.Idx) : cos x j = Ideal.cos (x j) := rfl

/-- The first stored piece: the first memory block in direction 0, the second in direction 1. -/
theorem pay3_at (i : grid0.Coords) (v1 v3 : Vec Ideal S3000x128 .f32) (y : S3000x128.Idx) :
    k0_pay3 i v1 v3 y = if (i 1).val = 0 then v1 y else v3 y := by
  show Scalar.select (IntOp.cmpi .eq (BitVec.ofNat 32 (i 1).val) 0#32)
    (shapeCast S3000x128 v1 shapeCasts_S3000x128_S3000x128) (shapeCast S3000x128 v3 shapeCasts_S3000x128_S3000x128) y = _
  rw [select_eq0 _ (dir_lt i), shapeCast_self, shapeCast_self]
  split <;> rfl

/-- The second stored piece: the other memory block. -/
theorem pay4_at (i : grid0.Coords) (v1 v3 : Vec Ideal S3000x128 .f32) (y : S3000x128.Idx) :
    k0_pay4 i v1 v3 y = if (i 1).val = 0 then v3 y else v1 y := by
  show Scalar.select (IntOp.cmpi .eq (BitVec.ofNat 32 (i 1).val) 0#32)
    (shapeCast S3000x128 v3 shapeCasts_S3000x128_S3000x128) (shapeCast S3000x128 v1 shapeCasts_S3000x128_S3000x128) y = _
  rw [select_eq0 _ (dir_lt i), shapeCast_self, shapeCast_self]
  split <;> rfl

/-- The time encoding of one time column, as a block. -/
def encVec (v6 v8 : Vec Ideal S1x128 .f32) (t : Vec Ideal S3000x1 .f32) : FVec Ideal S3000x128 .f32 :=
  cos (addf (mulf (broadcastTo S3000x128 (shapeCast S3000x1 t shapeCasts_S3000x1_S3000x1) broadcasts_S3000x1_S3000x128)
      (broadcastTo S3000x128 (shapeCast S1x128 v6 shapeCasts_S1x128_S1x128) broadcasts_S1x128_S3000x128))
    (broadcastTo S3000x128 (shapeCast S1x128 v8 shapeCasts_S1x128_S1x128) broadcasts_S1x128_S3000x128))

theorem encVec_apply (v6 v8 : Vec Ideal S1x128 .f32) (t : Vec Ideal S3000x1 .f32) (p : Fin 3000) (q : Fin 128) :
    encVec v6 v8 t (ix2 p q) = Ideal.cos (t (ix2 p (0 : Fin 1)) * v6 (ix2 (0 : Fin 1) q) + v8 (ix2 (0 : Fin 1) q)) := by
  unfold encVec
  rw [cos_apply, addf_apply, mulf_apply, Cert.Lib.ColumnLayout.broadcastTo_a1_ab_apply, broadcastTo_1b_ab_apply,
    broadcastTo_1b_ab_apply, shapeCast_self, shapeCast_self, shapeCast_self]

/-- The fourth stored piece, as a choice between the two encodings. -/
theorem k0_pay5_eq (i : grid0.Coords) (v6 v8 : Vec Ideal S1x128 .f32) (v10 v18 : Vec Ideal S3000x1 .f32) :
    k0_pay5 i v6 v8 v10 v18
      = Scalar.select (IntOp.cmpi .eq (BitVec.ofNat 32 (i 1).val) 0#32) (encVec v6 v8 v10) (encVec v6 v8 v18) := rfl

theorem pay5_at (i : grid0.Coords) (v6 v8 : Vec Ideal S1x128 .f32) (v10 v18 : Vec Ideal S3000x1 .f32) (p : Fin 3000) (q : Fin 128) :
    k0_pay5 i v6 v8 v10 v18 (ix2 p q)
      = if (i 1).val = 0 then Ideal.cos (v10 (ix2 p (0 : Fin 1)) * v6 (ix2 (0 : Fin 1) q) + v8 (ix2 (0 : Fin 1) q))
        else Ideal.cos (v18 (ix2 p (0 : Fin 1)) * v6 (ix2 (0 : Fin 1) q) + v8 (ix2 (0 : Fin 1) q)) := by
  rw [k0_pay5_eq, select_eq0 _ (dir_lt i)]
  split
  · exact encVec_apply v6 v8 v10 p q
  · exact encVec_apply v6 v8 v18 p q

end Cert.KernelIdeal.Hand

end
-- ==== Proof.Spec.lean ====
/-
  The two functions both programs compute, index by index on the extended reals.

  Messages.  Event `e` of 150000 contributes two message rows of 512 entries: row `e` is
  (memory of the source, memory of the destination, the raw message, the time encoding of the source),
  row `150000 + e` the same with source and destination exchanged.  The time encoding of a node at lane `c`
  is `cos (t_rel · w c + b c)`, `t_rel` the event's time less the node's last update, as a real number.

  The gated update.  Row `r` of 200000: the summed messages of the row divided by `max (count, 1)` (the mean), its
  product with the transposed input weights plus the input bias (`gi`, 384 entries), the row's memory times the
  transposed hidden weights plus the hidden bias (`gh`), and then, lane `c` of 128,
    reset   = logistic (gi c + gh c)
    update  = logistic (gi (c + 128) + gh (c + 128))
    cand    = tanh (gi (c + 256) + reset · gh (c + 256))
    result  = (1 − update) · cand + update · memory.
  Sums are finite sums over the contracted coordinate; nothing here needs the entries to be finite.
-/
import Idealize.ShloMosaic.PureOps.Ideal
import Idealize.ShloMosaic.Lib.ValueIdx

noncomputable section

open scoped BigOperators

namespace Cert.Tgn

open Idealize.ShloMosaic Idealize.ShloMosaic.ValueIdx

/-- The real number one, as the word both programs spell it with. -/
abbrev one : EReal := Ideal.ofBits .f32 0x3F800000#32

/-- A matrix of extended reals. -/
abbrev Arr2 (a b : Nat) : Type := (⟨2, ![a, b]⟩ : Shape).Idx → EReal
/-- A vector of extended reals. -/
abbrev Arr1 (a : Nat) : Type := (⟨1, ![a]⟩ : Shape).Idx → EReal

/-- One message row: entry `c` is the first memory below 128, the second below 256, the raw message below 384, and
    the time encoding `cos (t · w + b)` from there on. -/
def msgRow (fst snd raw : Arr2 150000 128) (t : Arr2 150000 1) (w b : Arr2 1 128) (e : Fin 150000) (c : Fin 512) : EReal :=
  if h0 : c.val < 128 then fst (ix2 e ⟨c.val, h0⟩)
  else if h1 : c.val < 256 then snd (ix2 e ⟨c.val - 128, by omega⟩)
  else if h2 : c.val < 384 then raw (ix2 e ⟨c.val - 256, by omega⟩)
  else Ideal.cos (t (ix2 e (0 : Fin 1)) * w (ix2 (0 : Fin 1) ⟨c.val - 384, by omega⟩)
    + b (ix2 (0 : Fin 1) ⟨c.val - 384, by omega⟩))

/-- The message matrix: the source-direction rows, then the destination-direction rows. -/
def msg (mS mD raw : Arr2 150000 128) (tS tD : Arr2 150000 1) (w b : Arr2 1 128) : Arr2 300000 512 := fun j =>
  if h : (j 0).val < 150000 then msgRow mS mD raw tS w b ⟨(j 0).val, h⟩ ⟨(j 1).val, idx2_lt1 j⟩
  else msgRow mD mS raw tD w b ⟨(j 0).val - 150000, by have := idx2_lt0 j; omega⟩ ⟨(j 1).val, idx2_lt1 j⟩

/-- The mean message of row `r` at entry `k`: the sum over the count, the count at least one. -/
def aggr (sums : Arr2 200000 512) (cnt : Arr2 200000 1) (r : Fin 200000) (k : Fin 512) : EReal :=
  Ideal.div (sums (ix2 r k)) (max (cnt (ix2 r (0 : Fin 1))) one)

/-- The input gates' pre-activations of row `r`. -/
def gi (sums : Arr2 200000 512) (cnt : Arr2 200000 1) (wihT : Arr2 512 384) (bih : Arr1 384) (r : Fin 200000) (j : Fin 384) : EReal :=
  (∑ k : Fin 512, aggr sums cnt r k * wihT (ix2 k j)) + bih (ix1 j)

/-- The hidden gates' pre-activations of row `r`. -/
def gh (mem : Arr2 200000 128) (whhT : Arr2 128 384) (bhh : Arr1 384) (r : Fin 200000) (j : Fin 384) : EReal :=
  (∑ k : Fin 128, mem (ix2 r k) * whhT (ix2 k j)) + bhh (ix1 j)

/-- The gated update at row `r`, lane `c`. -/
def gruAt (sums : Arr2 200000 512) (cnt : Arr2 200000 1) (mem : Arr2 200000 128) (wihT : Arr2 512 384) (whhT : Arr2 128 384)
    (bih bhh : Arr1 384) (r : Fin 200000) (c : Fin 128) : EReal :=
  (one - Ideal.logistic (gi sums cnt wihT bih r ⟨c.val + 128, by omega⟩ + gh mem whhT bhh r ⟨c.val + 128, by omega⟩))
      * Ideal.tanh (gi sums cnt wihT bih r ⟨c.val + 256, by omega⟩
          + Ideal.logistic (gi sums cnt wihT bih r ⟨c.val, by omega⟩ + gh mem whhT bhh r ⟨c.val, by omega⟩)
            * gh mem whhT bhh r ⟨c.val + 256, by omega⟩)
    + Ideal.logistic (gi sums cnt wihT bih r ⟨c.val + 128, by omega⟩ + gh mem whhT bhh r ⟨c.val + 128, by omega⟩)
      * mem (ix2 r c)

/-- The new memory matrix. -/
def gru (sums : Arr2 200000 512) (cnt : Arr2 200000 1) (mem : Arr2 200000 128) (wihT : Arr2 512 384) (whhT : Arr2 128 384)
    (bih bhh : Arr1 384) : Arr2 200000 128 := fun i =>
  gruAt sums cnt mem wihT whhT bih bhh ⟨(i 0).val, idx2_lt0 i⟩ ⟨(i 1).val, idx2_lt1 i⟩

/-! ## The message matrix read by cases -/

section Cases
variable (mS mD raw : Arr2 150000 128) (tS tD : Arr2 150000 1) (w b : Arr2 1 128)

/-- A source-direction row. -/
theorem msg_lo (R : Fin 300000) (C : Fin 512) (h : R.val < 150000) :
    msg mS mD raw tS tD w b (ix2 R C) = msgRow mS mD raw tS w b ⟨R.val, h⟩ C := by
  unfold msg
  exact dif_pos h
/-- A destination-direction row. -/
theorem msg_hi (R : Fin 300000) (C : Fin 512) (h : 150000 ≤ R.val) :
    msg mS mD raw tS tD w b (ix2 R C) = msgRow mD mS raw tD w b ⟨R.val - 150000, by omega⟩ C := by
  unfold msg
  exact dif_neg (Nat.not_lt.mpr h)

variable (fst snd : Arr2 150000 128) (t : Arr2 150000 1) (e : Fin 150000)

theorem msgRow_0 (C : Fin 512) (h : C.val < 128) : msgRow fst snd raw t w b e C = fst (ix2 e ⟨C.val, h⟩) := by
  unfold msgRow; exact dif_pos h
theorem msgRow_1 (C : Fin 512) (h0 : 128 ≤ C.val) (h1 : C.val < 256) :
    msgRow fst snd raw t w b e C = snd (ix2 e ⟨C.val - 128, by omega⟩) := by
  unfold msgRow; rw [dif_neg (Nat.not_lt.mpr h0), dif_pos h1]
theorem msgRow_2 (C : Fin 512) (h0 : 256 ≤ C.val) (h1 : C.val < 384) :
    msgRow fst snd raw t w b e C = raw (ix2 e ⟨C.val - 256, by omega⟩) := by
  unfold msgRow; rw [dif_neg (by omega), dif_neg (by omega), dif_pos h1]
theorem msgRow_3 (C : Fin 512) (h0 : 384 ≤ C.val) :
    msgRow fst snd raw t w b e C = Ideal.cos (t (ix2 e (0 : Fin 1)) * w (ix2 (0 : Fin 1) ⟨C.val - 384, by omega⟩)
      + b (ix2 (0 : Fin 1) ⟨C.val - 384, by omega⟩)) := by
  unfold msgRow; rw [dif_neg (by omega), dif_neg (by omega), dif_neg (by omega)]

end Cases

end Cert.Tgn

end
-- ==== Proof.Region0.lean ====
/-
  The first kernel's output array: the message matrix.

  The grid is 50 × 2: point `(i, d)` reads rows `3000 i … 3000 i + 2999` of the two gathered memory matrices, of the raw
  messages and of the two time columns, and the one-row time-encoding parameters, and writes rows
  `3000 (50 d + i) … + 2999` of the 300000-row result: the source-direction rows for `d = 0`, the destination-direction
  rows (row 150000 onwards) for `d = 1`. The body's four stores are the four 128-lane pieces of a message row, so what each
  point writes back is its block of ONE matrix, `Cert.Tgn.msg` of the arrays the kernel finds, and the 100 blocks tile the
  rows: the array ends at that matrix.
-/
import proofs.«117648_j63496796504572_2_alg».proof.Proof.FrameKernelIdealP
import proofs.«117648_j63496796504572_2_alg».proof.Proof.PayMsg
import proofs.«117648_j63496796504572_2_alg».proof.Proof.Spec
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx Cert.Tgn
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The printed index maps over the grid: the five row-blocked inputs at row block `i`, the parameters at block zero, the
    output at row block `50 d + i`. -/
theorem idx_facts0 : ∀ t : Fin cfg0.N,
    win0_7.index t (0 : Fin 2) = (grid0.coords t 1).val * 50 + (grid0.coords t 0).val ∧ win0_7.index t (1 : Fin 2) = 0
    ∧ win0_0.index t (0 : Fin 2) = (grid0.coords t 0).val ∧ win0_0.index t (1 : Fin 2) = 0
    ∧ win0_1.index t (0 : Fin 2) = (grid0.coords t 0).val ∧ win0_1.index t (1 : Fin 2) = 0
    ∧ win0_2.index t (0 : Fin 2) = (grid0.coords t 0).val ∧ win0_2.index t (1 : Fin 2) = 0
    ∧ win0_3.index t (0 : Fin 2) = (grid0.coords t 0).val ∧ win0_3.index t (1 : Fin 2) = 0
    ∧ win0_4.index t (0 : Fin 2) = (grid0.coords t 0).val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every row block is some point's. -/
theorem idx_onto0 : ∀ q0 : Fin 100, ∃ t : Fin cfg0.N, win0_7.index t = ![q0.val, 0] :=
  (by decide +kernel : ∀ q0 : Fin 100, ∃ t : Fin grid0.N, win0_7.index t = ![q0.val, 0])

theorem coord0_lt (t : Fin cfg0.N) : (grid0.coords t 0).val < 50 := (grid0.coords t 0).isLt
theorem coord1_lt (t : Fin cfg0.N) : (grid0.coords t 1).val < 2 := (grid0.coords t 1).isLt

/-- The event of row `p` of point `t`'s input blocks. -/
def evRow (t : Fin cfg0.N) (p : Fin 3000) : Fin 150000 :=
  ⟨(grid0.coords t 0).val * 3000 + p.val, by have := coord0_lt t; have := p.isLt; omega⟩
/-- The message row that row `p` of point `t`'s output block is. -/
def outRow (t : Fin cfg0.N) (p : Fin 3000) : Fin 300000 :=
  ⟨((grid0.coords t 1).val * 50 + (grid0.coords t 0).val) * 3000 + p.val, by
    have := coord0_lt t; have := coord1_lt t; have := p.isLt; omega⟩

/-! ## The input blocks as rows of their arrays -/

theorem read0 (c : Dev nD) (t : Fin cfg0.N) (p : Fin 3000) (q : Fin 128) :
    iblk0 V c 0 t (ix2 p q) = V c main_v6 (ix2 (evRow t p) q) := by
  obtain ⟨-, -, e0, e1, -⟩ := idx_facts0 t
  show V c main_v6 (((cfg0.win 0).blk t).view.emb (ix2 p q)) = _
  refine congrArg _ (funext fun a => Fin.ext ?_)
  match a with
  | ⟨0, _⟩ => show win0_0.index t (0 : Fin 2) * 3000 + 1 * p.val = (grid0.coords t 0).val * 3000 + p.val; omega
  | ⟨1, _⟩ => show win0_0.index t (1 : Fin 2) * 128 + 1 * q.val = q.val; omega
theorem read1 (c : Dev nD) (t : Fin cfg0.N) (p : Fin 3000) (q : Fin 128) :
    iblk0 V c 1 t (ix2 p q) = V c main_v13 (ix2 (evRow t p) q) := by
  obtain ⟨-, -, -, -, e0, e1, -⟩ := idx_facts0 t
  show V c main_v13 (((cfg0.win 1).blk t).view.emb (ix2 p q)) = _
  refine congrArg _ (funext fun a => Fin.ext ?_)
  match a with
  | ⟨0, _⟩ => show win0_1.index t (0 : Fin 2) * 3000 + 1 * p.val = (grid0.coords t 0).val * 3000 + p.val; omega
  | ⟨1, _⟩ => show win0_1.index t (1 : Fin 2) * 128 + 1 * q.val = q.val; omega
theorem read2 (c : Dev nD) (t : Fin cfg0.N) (p : Fin 3000) (q : Fin 128) :
    iblk0 V c 2 t (ix2 p q) = V c main_arg5 (ix2 (evRow t p) q) := by
  obtain ⟨-, -, -, -, -, -, e0, e1, -⟩ := idx_facts0 t
  show V c main_arg5 (((cfg0.win 2).blk t).view.emb (ix2 p q)) = _
  refine congrArg _ (funext fun a => Fin.ext ?_)
  match a with
  | ⟨0, _⟩ => show win0_2.index t (0 : Fin 2) * 3000 + 1 * p.val = (grid0.coords t 0).val * 3000 + p.val; omega
  | ⟨1, _⟩ => show win0_2.index t (1 : Fin 2) * 128 + 1 * q.val = q.val; omega
theorem read3 (c : Dev nD) (t : Fin cfg0.N) (p : Fin 3000) :
    iblk0 V c 3 t (ix2 p (0 : Fin 1)) = V c main_v30 (ix2 (evRow t p) (0 : Fin 1)) := by
  obtain ⟨-, -, -, -, -, -, -, -, e0, e1, -⟩ := idx_facts0 t
  show V c main_v30 (((cfg0.win 3).blk t).view.emb (ix2 p (0 : Fin 1))) = _
  refine congrArg _ (funext fun a => Fin.ext ?_)
  match a with
  | ⟨0, _⟩ => show win0_3.index t (0 : Fin 2) * 3000 + 1 * p.val = (grid0.coords t 0).val * 3000 + p.val; omega
  | ⟨1, _⟩ => show win0_3.index t (1 : Fin 2) * 1 + 1 * 0 = 0; omega
theorem read4 (c : Dev nD) (t : Fin cfg0.N) (p : Fin 3000) :
    iblk0 V c 4 t (ix2 p (0 : Fin 1)) = V c main_v33 (ix2 (evRow t p) (0 : Fin 1)) := by
  obtain ⟨-, -, -, -, -, -, -, -, -, -, e0, e1, -⟩ := idx_facts0 t
  show V c main_v33 (((cfg0.win 4).blk t).view.emb (ix2 p (0 : Fin 1))) = _
  refine congrArg _ (funext fun a => Fin.ext ?_)
  match a with
  | ⟨0, _⟩ => show win0_4.index t (0 : Fin 2) * 3000 + 1 * p.val = (grid0.coords t 0).val * 3000 + p.val; omega
  | ⟨1, _⟩ => show win0_4.index t (1 : Fin 2) * 1 + 1 * 0 = 0; omega
theorem read5 (c : Dev nD) (t : Fin cfg0.N) (q : Fin 128) :
    iblk0 V c 5 t (ix2 (0 : Fin 1) q) = V c main_v34 (ix2 (0 : Fin 1) q) := by
  obtain ⟨-, -, -, -, -, -, -, -, -, -, -, -, e0, e1, -⟩ := idx_facts0 t
  show V c main_v34 (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega
theorem read6 (c : Dev nD) (t : Fin cfg0.N) (q : Fin 128) :
    iblk0 V c 6 t (ix2 (0 : Fin 1) q) = V c main_v35 (ix2 (0 : Fin 1) q) := by
  obtain ⟨-, -, -, -, -, -, -, -, -, -, -, -, -, -, e0, e1⟩ := idx_facts0 t
  show V c main_v35 (((cfg0.win 6).blk t).view.emb (ix2 (0 : Fin 1) q)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-- Entry `(p, C)` of point `t`'s output block is entry `(outRow t p, C)` of the array. -/
theorem emb7 (t : Fin cfg0.N) (p : Fin 3000) (C : Fin 512) :
    ((cfg0.win 7).blk t).view.emb (ix2 p C) = ix2 (outRow t p) C := by
  obtain ⟨e0, e1, -⟩ := idx_facts0 t
  funext a; apply Fin.ext
  match a with
  | ⟨0, _⟩ =>
    show win0_7.index t (0 : Fin 2) * 3000 + 1 * p.val = ((grid0.coords t 1).val * 50 + (grid0.coords t 0).val) * 3000 + p.val
    rw [e0]; omega
  | ⟨1, _⟩ => show win0_7.index t (1 : Fin 2) * 512 + 1 * C.val = C.val; omega

/-- The message matrix as a function of the arrays the first kernel finds. -/
abbrev msgOf (c : Dev nD) : Arr2 300000 512 :=
  msg (V c main_v6) (V c main_v13) (V c main_arg5) (V c main_v30) (V c main_v33) (V c main_v34) (V c main_v35)

/-! ## The four stored pieces are the four pieces of a message row -/

/-- Lanes 0 … 127: the first memory. -/
theorem piece_first (c : Dev nD) (t : Fin cfg0.N) (p : Fin 3000) (q : Fin 128) :
    k0_pay3 (grid0.coords t) (iblk0 V c 0 t) (iblk0 V c 1 t) (ix2 p q) = msgOf V c (ix2 (outRow t p) ⟨q.val, by omega⟩) := by
  have hd := coord1_lt t
  unfold msgOf
  rw [pay3_at]
  by_cases h0 : (grid0.coords t 1).val = 0
  · have hlt : (outRow t p).val < 150000 := by
      show ((grid0.coords t 1).val * 50 + (grid0.coords t 0).val) * 3000 + p.val < 150000
      have := coord0_lt t; have := p.isLt; rw [h0]; omega
    rw [if_pos h0, read0, msg_lo _ _ _ _ _ _ _ _ _ hlt, msgRow_0 _ _ _ _ _ _ _ _ (by show q.val < 128; omega)]
    refine congrArg _ (funext fun a => Fin.ext ?_)
    match a with
    | ⟨0, _⟩ =>
      show (grid0.coords t 0).val * 3000 + p.val = ((grid0.coords t 1).val * 50 + (grid0.coords t 0).val) * 3000 + p.val
      rw [h0]; omega
    | ⟨1, _⟩ => rfl
  · have h1 : (grid0.coords t 1).val = 1 := by omega
    have hge : 150000 ≤ (outRow t p).val := by
      show 150000 ≤ ((grid0.coords t 1).val * 50 + (grid0.coords t 0).val) * 3000 + p.val
      rw [h1]; omega
    rw [if_neg h0, read1, msg_hi _ _ _ _ _ _ _ _ _ hge, msgRow_0 _ _ _ _ _ _ _ _ (by show q.val < 128; omega)]
    refine congrArg _ (funext fun a => Fin.ext ?_)
    match a with
    | ⟨0, _⟩ =>
      show (grid0.coords t 0).val * 3000 + p.val = ((grid0.coords t 1).val * 50 + (grid0.coords t 0).val) * 3000 + p.val - 150000
      rw [h1]; omega
    | ⟨1, _⟩ => rfl

/-- Lanes 128 … 255: the second memory. -/
theorem piece_second (c : Dev nD) (t : Fin cfg0.N) (p : Fin 3000) (q : Fin 128) :
    k0_pay4 (grid0.coords t) (iblk0 V c 0 t) (iblk0 V c 1 t) (ix2 p q) = msgOf V c (ix2 (outRow t p) ⟨q.val + 128, by omega⟩) := by
  have hd := coord1_lt t
  unfold msgOf
  rw [pay4_at]
  by_cases h0 : (grid0.coords t 1).val = 0
  · have hlt : (outRow t p).val < 150000 := by
      show ((grid0.coords t 1).val * 50 + (grid0.coords t 0).val) * 3000 + p.val < 150000
      have := coord0_lt t; have := p.isLt; rw [h0]; omega
    rw [if_pos h0, read1, msg_lo _ _ _ _ _ _ _ _ _ hlt,
      msgRow_1 _ _ _ _ _ _ _ _ (by show 128 ≤ q.val + 128; omega) (by show q.val + 128 < 256; omega)]
    refine congrArg _ (funext fun a => Fin.ext ?_)
    match a with
    | ⟨0, _⟩ =>
      show (grid0.coords t 0).val * 3000 + p.val = ((grid0.coords t 1).val * 50 + (grid0.coords t 0).val) * 3000 + p.val
      rw [h0]; omega
    | ⟨1, _⟩ => show q.val = q.val + 128 - 128; omega
  · have h1 : (grid0.coords t 1).val = 1 := by omega
    have hge : 150000 ≤ (outRow t p).val := by
      show 150000 ≤ ((grid0.coords t 1).val * 50 + (grid0.coords t 0).val) * 3000 + p.val
      rw [h1]; omega
    rw [if_neg h0, read0, msg_hi _ _ _ _ _ _ _ _ _ hge,
      msgRow_1 _ _ _ _ _ _ _ _ (by show 128 ≤ q.val + 128; omega) (by show q.val + 128 < 256; omega)]
    refine congrArg _ (funext fun a => Fin.ext ?_)
    match a with
    | ⟨0, _⟩ =>
      show (grid0.coords t 0).val * 3000 + p.val = ((grid0.coords t 1).val * 50 + (grid0.coords t 0).val) * 3000 + p.val - 150000
      rw [h1]; omega
    | ⟨1, _⟩ => show q.val = q.val + 128 - 128; omega

/-- Lanes 256 … 383: the raw message, in both directions. -/
theorem piece_raw (c : Dev nD) (t : Fin cfg0.N) (p : Fin 3000) (q : Fin 128) :
    iblk0 V c 2 t (ix2 p q) = msgOf V c (ix2 (outRow t p) ⟨q.val + 256, by omega⟩) := by
  have hd := coord1_lt t
  unfold msgOf
  rw [read2]
  by_cases h0 : (grid0.coords t 1).val = 0
  · have hlt : (outRow t p).val < 150000 := by
      show ((grid0.coords t 1).val * 50 + (grid0.coords t 0).val) * 3000 + p.val < 150000
      have := coord0_lt t; have := p.isLt; rw [h0]; omega
    rw [msg_lo _ _ _ _ _ _ _ _ _ hlt,
      msgRow_2 _ _ _ _ _ _ _ _ (by show 256 ≤ q.val + 256; omega) (by show q.val + 256 < 384; omega)]
    refine congrArg _ (funext fun a => Fin.ext ?_)
    match a with
    | ⟨0, _⟩ =>
      show (grid0.coords t 0).val * 3000 + p.val = ((grid0.coords t 1).val * 50 + (grid0.coords t 0).val) * 3000 + p.val
      rw [h0]; omega
    | ⟨1, _⟩ => show q.val = q.val + 256 - 256; omega
  · have h1 : (grid0.coords t 1).val = 1 := by omega
    have hge : 150000 ≤ (outRow t p).val := by
      show 150000 ≤ ((grid0.coords t 1).val * 50 + (grid0.coords t 0).val) * 3000 + p.val
      rw [h1]; omega
    rw [msg_hi _ _ _ _ _ _ _ _ _ hge,
      msgRow_2 _ _ _ _ _ _ _ _ (by show 256 ≤ q.val + 256; omega) (by show q.val + 256 < 384; omega)]
    refine congrArg _ (funext fun a => Fin.ext ?_)
    match a with
    | ⟨0, _⟩ =>
      show (grid0.coords t 0).val * 3000 + p.val = ((grid0.coords t 1).val * 50 + (grid0.coords t 0).val) * 3000 + p.val - 150000
      rw [h1]; omega
    | ⟨1, _⟩ => show q.val = q.val + 256 - 256; omega

/-- Lanes 384 … 511: the time encoding of the direction's first node. -/
theorem piece_enc (c : Dev nD) (t : Fin cfg0.N) (p : Fin 3000) (q : Fin 128) :
    k0_pay5 (grid0.coords t) (iblk0 V c 5 t) (iblk0 V c 6 t) (iblk0 V c 3 t) (iblk0 V c 4 t) (ix2 p q)
      = msgOf V c (ix2 (outRow t p) ⟨q.val + 384, by omega⟩) := by
  have hd := coord1_lt t
  unfold msgOf
  rw [pay5_at, read3, read4, read5, read6]
  have hq : (⟨(⟨q.val + 384, by omega⟩ : Fin 512).val - 384, by show q.val + 384 - 384 < 128; omega⟩ : Fin 128) = q :=
    Fin.ext (by show q.val + 384 - 384 = q.val; omega)
  by_cases h0 : (grid0.coords t 1).val = 0
  · have hlt : (outRow t p).val < 150000 := by
      show ((grid0.coords t 1).val * 50 + (grid0.coords t 0).val) * 3000 + p.val < 150000
      have := coord0_lt t; have := p.isLt; rw [h0]; omega
    have hE : (⟨(outRow t p).val, hlt⟩ : Fin 150000) = evRow t p := Fin.ext (by
      show ((grid0.coords t 1).val * 50 + (grid0.coords t 0).val) * 3000 + p.val = (grid0.coords t 0).val * 3000 + p.val
      rw [h0]; omega)
    rw [if_pos h0, msg_lo _ _ _ _ _ _ _ _ _ hlt, msgRow_3 _ _ _ _ _ _ _ _ (by show 384 ≤ q.val + 384; omega), hE, hq]
  · have h1 : (grid0.coords t 1).val = 1 := by omega
    have hge : 150000 ≤ (outRow t p).val := by
      show 150000 ≤ ((grid0.coords t 1).val * 50 + (grid0.coords t 0).val) * 3000 + p.val
      rw [h1]; omega
    have hE : (⟨(outRow t p).val - 150000, by have := (outRow t p).isLt; omega⟩ : Fin 150000) = evRow t p := Fin.ext (by
      show ((grid0.coords t 1).val * 50 + (grid0.coords t 0).val) * 3000 + p.val - 150000 = (grid0.coords t 0).val * 3000 + p.val
      rw [h1]; omega)
    rw [if_neg h0, msg_hi _ _ _ _ _ _ _ _ _ hge, msgRow_3 _ _ _ _ _ _ _ _ (by show 384 ≤ q.val + 384; omega), hE, hq]

/-- What point `t` writes back is its block of the message matrix. -/
theorem flushed0_eq (c : Dev nD) (t : Fin cfg0.N) :
    (dat0 V c).flushed 7 t = ((cfg0.win 7).blk t).view.read (Elt Ideal) (msgOf V c) := by
  show (cfg0.win 7).cut (grid0.coords t) ((dat0 V c).after 7 t) = _
  rw [after0_7]
  unfold out0_7
  simp only [View.ld_unit_zero (S := S3000x128) hz2', View.ld_unit_zero (S := S3000x1) hz2', View.ld_unit_zero (S := S1x128) hz2']
  funext y
  refine View.canon_apply_of_pieces (((cfg0.win 7).blk t).view.read (Elt Ideal) (msgOf V c)) _ ?_ y (cover0_7 _ _ _ _ y)
  intro pc hpc x
  simp only [List.mem_cons, List.mem_singleton, List.not_mem_nil, or_false] at hpc
  rcases hpc with rfl | rfl | rfl | rfl
  · obtain ⟨p, q, rfl⟩ : ∃ (p : Fin 3000) (q : Fin 128), x = ix2 p q := ⟨x 0, x 1, eq_ix2 x⟩
    have he : r0_6.emb (ix2 p q) = ix2 p (⟨q.val + 384, by omega⟩ : Fin 512) := funext fun a => Fin.ext (by
      match a with
      | ⟨0, _⟩ => show 0 + 1 * p.val = p.val; omega
      | ⟨1, _⟩ => show 384 + 1 * q.val = q.val + 384; omega)
    show k0_pay5 (grid0.coords t) (iblk0 V c 5 t) (iblk0 V c 6 t) (iblk0 V c 3 t) (iblk0 V c 4 t) (ix2 p q)
      = msgOf V c (((cfg0.win 7).blk t).view.emb (r0_6.emb (ix2 p q)))
    rw [he, emb7]
    exact piece_enc V c t p q
  · obtain ⟨p, q, rfl⟩ : ∃ (p : Fin 3000) (q : Fin 128), x = ix2 p q := ⟨x 0, x 1, eq_ix2 x⟩
    have he : r0_5.emb (ix2 p q) = ix2 p (⟨q.val + 256, by omega⟩ : Fin 512) := funext fun a => Fin.ext (by
      match a with
      | ⟨0, _⟩ => show 0 + 1 * p.val = p.val; omega
      | ⟨1, _⟩ => show 256 + 1 * q.val = q.val + 256; omega)
    show iblk0 V c 2 t (ix2 p q) = msgOf V c (((cfg0.win 7).blk t).view.emb (r0_5.emb (ix2 p q)))
    rw [he, emb7]
    exact piece_raw V c t p q
  · obtain ⟨p, q, rfl⟩ : ∃ (p : Fin 3000) (q : Fin 128), x = ix2 p q := ⟨x 0, x 1, eq_ix2 x⟩
    have he : r0_4.emb (ix2 p q) = ix2 p (⟨q.val + 128, by omega⟩ : Fin 512) := funext fun a => Fin.ext (by
      match a with
      | ⟨0, _⟩ => show 0 + 1 * p.val = p.val; omega
      | ⟨1, _⟩ => show 128 + 1 * q.val = q.val + 128; omega)
    show k0_pay4 (grid0.coords t) (iblk0 V c 0 t) (iblk0 V c 1 t) (ix2 p q)
      = msgOf V c (((cfg0.win 7).blk t).view.emb (r0_4.emb (ix2 p q)))
    rw [he, emb7]
    exact piece_second V c t p q
  · obtain ⟨p, q, rfl⟩ : ∃ (p : Fin 3000) (q : Fin 128), x = ix2 p q := ⟨x 0, x 1, eq_ix2 x⟩
    have he : r0_3.emb (ix2 p q) = ix2 p (⟨q.val, by omega⟩ : Fin 512) := funext fun a => Fin.ext (by
      match a with
      | ⟨0, _⟩ => show 0 + 1 * p.val = p.val; omega
      | ⟨1, _⟩ => show 0 + 1 * q.val = q.val; omega)
    show k0_pay3 (grid0.coords t) (iblk0 V c 0 t) (iblk0 V c 1 t) (ix2 p q)
      = msgOf V c (((cfg0.win 7).blk t).view.emb (r0_3.emb (ix2 p q)))
    rw [he, emb7]
    exact piece_first V c t p q

/-- An index of the array is in point `t`'s block iff each coordinate is in the block's range on its axis. -/
theorem mem_blk0 (t : Fin cfg0.N) (i : S300000x512.Idx) :
    i ∈ ((cfg0.win 7).blk t).view.set ↔ ∀ a : Fin 2, win0_7.index t a * S3000x512.size a ≤ (i a).val
      ∧ (i a).val < win0_7.index t a * S3000x512.size a + S3000x512.size a := by
  show i ∈ ((View.whole main_v36).slice (win0_7.rect t)).set ↔ _
  rw [View.set_slice_whole, Rect.mem_set_unit]
  exact Iff.rfl

/-- Every entry of the array is in some point's block: row `r` in the block of row block `r / 3000`. -/
theorem cover0 (i : S300000x512.Idx) :
    ∃ t : Fin cfg0.N, (cfg0.win 7).flush t = true ∧ i ∈ ((cfg0.win 7).blk t).view.set := by
  have hi0 : (i 0).val < 300000 := (i 0).isLt
  have hi1 : (i 1).val < 512 := (i 1).isLt
  obtain ⟨t, ht⟩ := idx_onto0 ⟨(i 0).val / 3000, by omega⟩
  have q0 : win0_7.index t (0 : Fin 2) = (i 0).val / 3000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 3000 ≤ (i 0).val ∧ (i 0).val < win0_7.index t (0 : Fin 2) * 3000 + 3000; omega
  | ⟨1, _⟩ => show win0_7.index t (1 : Fin 2) * 512 ≤ (i 1).val ∧ (i 1).val < win0_7.index t (1 : Fin 2) * 512 + 512; omega

/-- THE ARRAY after the first kernel: the message matrix. -/
theorem final0 (c : Dev nD) : (dat0 V c).arrAt 7 cfg0.N = msgOf V c :=
  (dat0 V c).arrAt_eq_of_cover 7 (msgOf V c) (fun t _ => flushed0_eq V c t) cover0

end Cert.KernelIdeal.Hand

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.PayGru.lean ====
/-
  The second kernel's arithmetic at one entry of its block.

  At row `p` of a block of 2000 rows and lane `q` of 128 the body computes the gated update of `Cert.Tgn.gruAt`:
  the block's summed messages divided by `max (count, 1)`, two matrix products into a zero accumulator (finite sums over the
  contracted coordinate), the biases spread over the rows, the three 128-lane slices of each 384-lane product, two logistic
  gates, a hyperbolic tangent and the convex combination with the old memory. Narrowing to the short float format is the
  identity on extended reals.
-/
import proofs.«117648_j63496796504572_2_alg».proof.Proof.Gen.KernelIdeal.Skeleton
import proofs.«117648_j63496796504572_2_alg».proof.Proof.Spec
import proofs.«117648_j63496796504572_2_alg».proof.Proof.LibPlainDot
import proofs.«117648_j63496796504572_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Tgn

/-- The printed dimension numbers of the input product are the plain ones. -/
theorem dot_ih_plain : dot_S2000x512_S512x384_S2000x384_1_0_0_1_n_n = DotDims.plain 2000 512 384 := rfl
/-- The printed dimension numbers of the hidden product are the plain ones. -/
theorem dot_hh_plain : dot_S2000x128_S128x384_S2000x384_1_0_0_1_n_n = DotDims.plain 2000 128 384 := rfl

/-- A logistic gate at an entry. -/
theorem logistic_apply {s : Shape} (x : FVec Ideal s .f32) (i : s.Idx) : logistic x i = Ideal.logistic (x i) := rfl
/-- A hyperbolic tangent at an entry. -/
theorem tanh_apply {s : Shape} (x : FVec Ideal s .f32) (i : s.Idx) : tanh x i = Ideal.tanh (x i) := rfl

/-- The mean message of the block, as the matrix product's left operand. -/
def meanVec (v0 : Vec Ideal S2000x512 .f32) (v2 : Vec Ideal S2000x1 .f32) : FVec Ideal S2000x512 .bf16 :=
  truncf .bf16 (divf (shapeCast S2000x512 v0 shapeCasts_S2000x512_S2000x512)
    (broadcastTo S2000x512 (maximumf (shapeCast S2000x1 v2 shapeCasts_S2000x1_S2000x1)
      (broadcast S2000x1 (Scalar.ofBits (F := Ideal) .f32 0x3F800000#32))) broadcasts_S2000x1_S2000x512)) bitsLt_bf16_f32

/-- The mean message at `(p, k)` of the block. -/
theorem meanVec_apply (v0 : Vec Ideal S2000x512 .f32) (v2 : Vec Ideal S2000x1 .f32) (p : Fin 2000) (k : Fin 512) :
    meanVec v0 v2 (ix2 p k) = Ideal.div (v0 (ix2 p k)) (max (v2 (ix2 p (0 : Fin 1))) one) := by
  unfold meanVec
  rw [truncf_apply, divf_apply, shapeCast_self, Cert.Lib.ColumnLayout.broadcastTo_a1_ab_apply, maximumf_apply, shapeCast_self]
  rfl

/-- The input gates' pre-activations of the block. -/
def giVec (v0 : Vec Ideal S2000x512 .f32) (v2 : Vec Ideal S2000x1 .f32) (v9 : Vec Ideal S512x384 .bf16) (v12 : Vec Ideal S384 .f32) :
    FVec Ideal S2000x384 .f32 :=
  addf (matmul dot_S2000x512_S512x384_S2000x384_1_0_0_1_n_n none (meanVec v0 v2)
      (shapeCast S512x384 v9 shapeCasts_S512x384_S512x384 : FVec Ideal S512x384 .bf16) (constant S2000x384 .f32 0x00000000#32))
    (broadcastTo S2000x384 (shapeCast S1x384 v12 shapeCasts_S384_S1x384) broadcasts_S1x384_S2000x384)

/-- The hidden gates' pre-activations of the block. -/
def ghVec (v16 : Vec Ideal S2000x128 .f32) (v18 : Vec Ideal S128x384 .bf16) (v21 : Vec Ideal S384 .f32) : FVec Ideal S2000x384 .f32 :=
  addf (matmul dot_S2000x128_S128x384_S2000x384_1_0_0_1_n_n none (truncf .bf16 v16 bitsLt_bf16_f32)
      (shapeCast S128x384 v18 shapeCasts_S128x384_S128x384 : FVec Ideal S128x384 .bf16) (constant S2000x384 .f32 0x00000000#32))
    (broadcastTo S2000x384 (shapeCast S1x384 v21 shapeCasts_S384_S1x384) broadcasts_S1x384_S2000x384)

/-- A bias vector spread over the block's rows, at `(p, j)`. -/
theorem bias_apply (v : Vec Ideal S384 .f32) (p : Fin 2000) (j : Fin 384) :
    (broadcastTo S2000x384 (shapeCast S1x384 v shapeCasts_S384_S1x384) broadcasts_S1x384_S2000x384 : FVec Ideal S2000x384 .f32) (ix2 p j)
      = v (ix1 j) := by
  rw [broadcastTo_1b_ab_apply, shapeCast_a_1a_apply]

theorem giVec_apply (v0 : Vec Ideal S2000x512 .f32) (v2 : Vec Ideal S2000x1 .f32) (v9 : Vec Ideal S512x384 .bf16) (v12 : Vec Ideal S384 .f32)
    (p : Fin 2000) (j : Fin 384) :
    giVec v0 v2 v9 v12 (ix2 p j)
      = (∑ k : Fin 512, Ideal.div (v0 (ix2 p k)) (max (v2 (ix2 p (0 : Fin 1))) one) * v9 (ix2 k j)) + v12 (ix1 j) := by
  unfold giVec
  rw [addf_apply, bias_apply, shapeCast_self, dot_ih_plain]
  refine congrArg (· + v12 (ix1 j)) ?_
  refine (PlainDot.matmul_apply_ix2 none (meanVec v0 v2) v9 p j).trans ?_
  exact Finset.sum_congr rfl fun k _ => by rw [meanVec_apply]

theorem ghVec_apply (v16 : Vec Ideal S2000x128 .f32) (v18 : Vec Ideal S128x384 .bf16) (v21 : Vec Ideal S384 .f32)
    (p : Fin 2000) (j : Fin 384) :
    ghVec v16 v18 v21 (ix2 p j) = (∑ k : Fin 128, v16 (ix2 p k) * v18 (ix2 k j)) + v21 (ix1 j) := by
  unfold ghVec
  rw [addf_apply, bias_apply, shapeCast_self, dot_hh_plain]
  refine congrArg (· + v21 (ix1 j)) ?_
  exact PlainDot.matmul_apply_ix2 none (truncf .bf16 v16 bitsLt_bf16_f32) v18 p j

/-- The three 128-lane slices of a 384-lane block at `(p, q)`. -/
theorem slice0_apply (X : FVec Ideal S2000x384 .f32) (p : Fin 2000) (q : Fin 128) :
    extractStridedSlice S2000x128 ![0, 0] X slices_S2000x384_o0_0_S2000x128 (ix2 p q) = X (ix2 p ⟨q.val, by omega⟩) :=
  slice2_axis1_apply 0 X slices_S2000x384_o0_0_S2000x128 p q ⟨q.val, by omega⟩ (Nat.zero_add _).symm
theorem slice128_apply (X : FVec Ideal S2000x384 .f32) (p : Fin 2000) (q : Fin 128) :
    extractStridedSlice S2000x128 ![0, 128] X slices_S2000x384_o0_128_S2000x128 (ix2 p q) = X (ix2 p ⟨q.val + 128, by omega⟩) :=
  slice2_axis1_apply 128 X slices_S2000x384_o0_128_S2000x128 p q ⟨q.val + 128, by omega⟩ (Nat.add_comm _ _)
theorem slice256_apply (X : FVec Ideal S2000x384 .f32) (p : Fin 2000) (q : Fin 128) :
    extractStridedSlice S2000x128 ![0, 256] X slices_S2000x384_o0_256_S2000x128 (ix2 p q) = X (ix2 p ⟨q.val + 256, by omega⟩) :=
  slice2_axis1_apply 256 X slices_S2000x384_o0_256_S2000x128 p q ⟨q.val + 256, by omega⟩ (Nat.add_comm _ _)

/-- The body's value, as one expression of the two pre-activation blocks. -/
theorem k1_pay1_eq (v0 : Vec Ideal S2000x512 .f32) (v2 : Vec Ideal S2000x1 .f32) (v9 : Vec Ideal S512x384 .bf16) (v12 : Vec Ideal S384 .f32)
    (v16 : Vec Ideal S2000x128 .f32) (v18 : Vec Ideal S128x384 .bf16) (v21 : Vec Ideal S384 .f32) :
    k1_pay1 v0 v2 v9 v12 v16 v18 v21
      = addf (mulf (subf (broadcast S2000x128 (Scalar.ofBits (F := Ideal) .f32 0x3F800000#32))
            (logistic (addf (extractStridedSlice S2000x128 ![0, 128] (giVec v0 v2 v9 v12) slices_S2000x384_o0_128_S2000x128)
              (extractStridedSlice S2000x128 ![0, 128] (ghVec v16 v18 v21) slices_S2000x384_o0_128_S2000x128))))
          (tanh (addf (extractStridedSlice S2000x128 ![0, 256] (giVec v0 v2 v9 v12) slices_S2000x384_o0_256_S2000x128)
            (mulf (logistic (addf (extractStridedSlice S2000x128 ![0, 0] (giVec v0 v2 v9 v12) slices_S2000x384_o0_0_S2000x128)
                (extractStridedSlice S2000x128 ![0, 0] (ghVec v16 v18 v21) slices_S2000x384_o0_0_S2000x128)))
              (extractStridedSlice S2000x128 ![0, 256] (ghVec v16 v18 v21) slices_S2000x384_o0_256_S2000x128)))))
        (mulf (logistic (addf (extractStridedSlice S2000x128 ![0, 128] (giVec v0 v2 v9 v12) slices_S2000x384_o0_128_S2000x128)
            (extractStridedSlice S2000x128 ![0, 128] (ghVec v16 v18 v21) slices_S2000x384_o0_128_S2000x128))) v16) := rfl

/-- THE BODY AT AN ENTRY: whenever row `p` of the blocks is row `r` of the arrays (and the weights and biases are the
    arrays'), the body's value at `(p, q)` is the gated update of row `r` at lane `q`. -/
theorem pay_gru_at (v0 : Vec Ideal S2000x512 .f32) (v2 : Vec Ideal S2000x1 .f32) (v9 : Vec Ideal S512x384 .bf16) (v12 : Vec Ideal S384 .f32)
    (v16 : Vec Ideal S2000x128 .f32) (v18 : Vec Ideal S128x384 .bf16) (v21 : Vec Ideal S384 .f32) (p : Fin 2000) (q : Fin 128)
    (sums : Arr2 200000 512) (cnt : Arr2 200000 1) (mem : Arr2 200000 128) (wihT : Arr2 512 384) (whhT : Arr2 128 384) (bih bhh : Arr1 384)
    (r : Fin 200000)
    (h0 : ∀ k : Fin 512, v0 (ix2 p k) = sums (ix2 r k)) (h2 : v2 (ix2 p (0 : Fin 1)) = cnt (ix2 r (0 : Fin 1)))
    (h16 : ∀ k : Fin 128, v16 (ix2 p k) = mem (ix2 r k))
    (h9 : ∀ (k : Fin 512) (j : Fin 384), v9 (ix2 k j) = wihT (ix2 k j)) (h18 : ∀ (k : Fin 128) (j : Fin 384), v18 (ix2 k j) = whhT (ix2 k j))
    (h12 : ∀ j : Fin 384, v12 (ix1 j) = bih (ix1 j)) (h21 : ∀ j : Fin 384, v21 (ix1 j) = bhh (ix1 j)) :
    k1_pay1 v0 v2 v9 v12 v16 v18 v21 (ix2 p q) = gruAt sums cnt mem wihT whhT bih bhh r q := by
  rw [k1_pay1_eq]
  simp only [addf_apply, mulf_apply, subf_apply, logistic_apply, tanh_apply, broadcast_apply,
    slice0_apply, slice128_apply, slice256_apply, giVec_apply, ghVec_apply]
  unfold gruAt gi gh aggr
  simp only [h0, h2, h16, h9, h18, h12, h21]
  rfl

end Cert.KernelIdeal.Hand

end
-- ==== Proof.Region1.lean ====
/-
  The second kernel's output array: the gated update of every row.

  The grid has 100 points; point `t` reads rows `2000 t … 2000 t + 1999` of the summed messages, of the count column and of
  the memory, the whole of both transposed weight matrices and of both biases, and writes the same rows of the result.
  At row `p` of the block and lane `q` the body's value is the gated update of row `2000 t + p` (the arithmetic is read in
  the module of the kernel's payload), so what every point writes back is its block of ONE matrix, and the blocks tile the
  200000 rows: the array ends at that matrix.
-/
import proofs.«117648_j63496796504572_2_alg».proof.Proof.FrameKernelIdealP
import proofs.«117648_j63496796504572_2_alg».proof.Proof.PayGru
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx Cert.Tgn
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs move with the output, the weights and biases stay
    at block zero, and the output's row-block index is below 100. -/
theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = win1_7.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0 ∧ win1_6.index t (0 : Fin 1) = 0
    ∧ win1_7.index t (1 : Fin 2) = 0 ∧ win1_7.index t (0 : Fin 2) ≤ 99 :=
  (by decide +kernel : ∀ t : Fin grid1.N, _)

/-- Every row block is some point's. -/
theorem idx_onto1 : ∀ q0 : Fin 100, ∃ t : Fin cfg1.N, win1_7.index t = ![q0.val, 0] :=
  (by decide +kernel : ∀ q0 : Fin 100, ∃ t : Fin grid1.N, win1_7.index t = ![q0.val, 0])

/-- The new memory as a function of the arrays the second kernel finds. -/
abbrev gruOf (c : Dev nD) : Arr2 200000 128 :=
  gru (V c main_v41) (V c main_v46) (V c main_arg0) (V c main_v48) (V c main_v50) (V c main_arg10) (V c main_arg11)

/-- What point `t` writes back is its block of the gated update. -/
theorem flushed1_eq (c : Dev nD) (t : Fin cfg1.N) :
    (dat1 V c).flushed 7 t = ((cfg1.win 7).blk t).view.read (Elt Ideal) (gruOf V c) := by
  show (cfg1.win 7).cut (grid1.coords t) ((dat1 V c).after 7 t) = _
  rw [after1_7]
  unfold out1_7
  rw [View.canon_unit_zero hz2]
  simp only [View.ld_unit_zero (S := S2000x512) hz2, View.ld_unit_zero (S := S2000x1) hz2, View.ld_unit_zero (S := S2000x128) hz2,
    View.ld_unit_zero (S := S512x384) hz2, View.ld_unit_zero (S := S128x384) hz2, View.ld_unit_zero (S := S384) hz1]
  obtain ⟨e00, e01, e10, e11, e20, e21, e30, e31, e40, e41, e5, e6, e71, e7b⟩ := idx_facts1 t
  funext j
  obtain ⟨p, q, rfl⟩ : ∃ (p : Fin 2000) (q : Fin 128), j = ix2 p q := ⟨j 0, j 1, eq_ix2 j⟩
  have hR : win1_7.index t (0 : Fin 2) * 2000 + p.val < 200000 := by have := p.isLt; omega
  have hemb : ((cfg1.win 7).blk t).view.emb (ix2 p q)
      = ix2 (⟨win1_7.index t (0 : Fin 2) * 2000 + p.val, hR⟩ : Fin 200000) q := by
    funext a; apply Fin.ext
    match a with
    | ⟨0, _⟩ => show win1_7.index t (0 : Fin 2) * 2000 + 1 * p.val = win1_7.index t (0 : Fin 2) * 2000 + p.val; omega
    | ⟨1, _⟩ => show win1_7.index t (1 : Fin 2) * 128 + 1 * q.val = q.val; omega
  show k1_pay1 (iblk1 V c 0 t) (iblk1 V c 1 t) (iblk1 V c 3 t) (iblk1 V c 5 t) (iblk1 V c 2 t) (iblk1 V c 4 t) (iblk1 V c 6 t) (ix2 p q)
    = gruOf V c (((cfg1.win 7).blk t).view.emb (ix2 p q))
  rw [hemb]
  refine pay_gru_at (iblk1 V c 0 t) (iblk1 V c 1 t) (iblk1 V c 3 t) (iblk1 V c 5 t) (iblk1 V c 2 t) (iblk1 V c 4 t) (iblk1 V c 6 t) p q
    (V c main_v41) (V c main_v46) (V c main_arg0) (V c main_v48) (V c main_v50) (V c main_arg10) (V c main_arg11)
    ⟨win1_7.index t (0 : Fin 2) * 2000 + p.val, hR⟩ ?_ ?_ ?_ ?_ ?_ ?_ ?_
  · intro k
    show V c main_v41 (((cfg1.win 0).blk t).view.emb (ix2 p k)) = _
    refine congrArg _ (funext fun a => Fin.ext ?_)
    match a with
    | ⟨0, _⟩ => show win1_0.index t (0 : Fin 2) * 2000 + 1 * p.val = win1_7.index t (0 : Fin 2) * 2000 + p.val; omega
    | ⟨1, _⟩ => show win1_0.index t (1 : Fin 2) * 512 + 1 * k.val = k.val; omega
  · show V c main_v46 (((cfg1.win 1).blk t).view.emb (ix2 p (0 : Fin 1))) = _
    refine congrArg _ (funext fun a => Fin.ext ?_)
    match a with
    | ⟨0, _⟩ => show win1_1.index t (0 : Fin 2) * 2000 + 1 * p.val = win1_7.index t (0 : Fin 2) * 2000 + p.val; omega
    | ⟨1, _⟩ => show win1_1.index t (1 : Fin 2) * 1 + 1 * 0 = 0; omega
  · intro k
    show V c main_arg0 (((cfg1.win 2).blk t).view.emb (ix2 p k)) = _
    refine congrArg _ (funext fun a => Fin.ext ?_)
    match a with
    | ⟨0, _⟩ => show win1_2.index t (0 : Fin 2) * 2000 + 1 * p.val = win1_7.index t (0 : Fin 2) * 2000 + p.val; omega
    | ⟨1, _⟩ => show win1_2.index t (1 : Fin 2) * 128 + 1 * k.val = k.val; omega
  · intro k j
    show V c main_v48 (((cfg1.win 3).blk t).view.emb (ix2 k j)) = _
    refine congrArg _ (funext fun a => Fin.ext ?_)
    match a with
    | ⟨0, _⟩ => show win1_3.index t (0 : Fin 2) * 512 + 1 * k.val = k.val; omega
    | ⟨1, _⟩ => show win1_3.index t (1 : Fin 2) * 384 + 1 * j.val = j.val; omega
  · intro k j
    show V c main_v50 (((cfg1.win 4).blk t).view.emb (ix2 k j)) = _
    refine congrArg _ (funext fun a => Fin.ext ?_)
    match a with
    | ⟨0, _⟩ => show win1_4.index t (0 : Fin 2) * 128 + 1 * k.val = k.val; omega
    | ⟨1, _⟩ => show win1_4.index t (1 : Fin 2) * 384 + 1 * j.val = j.val; omega
  · intro j
    show V c main_arg10 (((cfg1.win 5).blk t).view.emb (ix1 j)) = _
    refine congrArg _ (funext fun a => Fin.ext ?_)
    match a with
    | ⟨0, _⟩ => show win1_5.index t (0 : Fin 1) * 384 + 1 * j.val = j.val; omega
  · intro j
    show V c main_arg11 (((cfg1.win 6).blk t).view.emb (ix1 j)) = _
    refine congrArg _ (funext fun a => Fin.ext ?_)
    match a with
    | ⟨0, _⟩ => show win1_6.index t (0 : Fin 1) * 384 + 1 * j.val = j.val; omega

/-- An index of the array is in point `t`'s block iff each coordinate is in the block's range on its axis. -/
theorem mem_blk1 (t : Fin cfg1.N) (i : S200000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v51).slice (win1_7.rect t)).set ↔ _
  rw [View.set_slice_whole, Rect.mem_set_unit]
  exact Iff.rfl

/-- Every entry of the array is in some point's block: row `r` in the block of point `r / 2000`. -/
theorem cover1 (i : S200000x128.Idx) :
    ∃ t : Fin cfg1.N, (cfg1.win 7).flush t = true ∧ i ∈ ((cfg1.win 7).blk t).view.set := by
  have hi0 : (i 0).val < 200000 := (i 0).isLt
  have hi1 : (i 1).val < 128 := (i 1).isLt
  obtain ⟨t, ht⟩ := idx_onto1 ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk1]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- THE ARRAY after the second kernel: the gated update of every row. -/
theorem final1 (c : Dev nD) : (dat1 V c).arrAt 7 cfg1.N = gruOf V c :=
  (dat1 V c).arrAt_eq_of_cover 7 (gruOf V c) (fun t _ => flushed1_eq V c t) cover1

end Cert.KernelIdeal.Hand

end
-- ==== Proof.RefValue.lean ====
/-
  The reference program's two stages, read index by index: its message matrix is the message function of the
  specification, and its last float stage is the gated update of the specification.
-/
import proofs.«117648_j63496796504572_2_alg».proof.Proof.Gen.ReferenceIdeal.Read
import proofs.«117648_j63496796504572_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.Tgn

/-! ## The message matrix -/

section Msg

variable (x0 : (⟨S200000x128, .f32⟩ : BufTy).Contents (Elt Ideal)) (x1 : (⟨S200000, .i32⟩ : BufTy).Contents (Elt Ideal))
  (x2 x3 x4 : (⟨S150000, .i32⟩ : BufTy).Contents (Elt Ideal)) (x5 : (⟨S150000x128, .f32⟩ : BufTy).Contents (Elt Ideal))
  (x6 x7 : (⟨S128, .f32⟩ : BufTy).Contents (Elt Ideal))

/-- The second direction gathers the destination's memory again. -/
theorem v57_eq_v31 : val_main_v57 (F := Ideal) x0 x3 = val_main_v31 (F := Ideal) x0 x3 := rfl
/-- The second direction gathers the source's memory again. -/
theorem v64_eq_v24 : val_main_v64 (F := Ideal) x0 x2 = val_main_v24 (F := Ideal) x0 x2 := rfl

/-- The relative-time column broadcast along a row is read at the row. -/
theorem idx11 (e : Fin 150000) (d : Fin 128) : idx_main_v11 (ix2 e d) = ix2 e (0 : Fin 1) :=
  funext fun a => Fin.ext (by match a with | ⟨0, _⟩ => rfl | ⟨1, _⟩ => rfl)
/-- The frequency row broadcast along the rows is read at the lane. -/
theorem idx12 (e : Fin 150000) (d : Fin 128) : idx_main_v10 (idx_main_v12 (ix2 e d)) = ix1 d :=
  funext fun a => Fin.ext (by match a with | ⟨0, _⟩ => rfl)
/-- The phase row broadcast along the rows is read at the lane. -/
theorem idx15 (e : Fin 150000) (d : Fin 128) : idx_main_v14 (idx_main_v15 (ix2 e d)) = ix1 d :=
  funext fun a => Fin.ext (by match a with | ⟨0, _⟩ => rfl)
theorem idx44 (e : Fin 150000) (d : Fin 128) : idx_main_v44 (ix2 e d) = ix2 e (0 : Fin 1) :=
  funext fun a => Fin.ext (by match a with | ⟨0, _⟩ => rfl | ⟨1, _⟩ => rfl)
theorem idx45 (e : Fin 150000) (d : Fin 128) : idx_main_v43 (idx_main_v45 (ix2 e d)) = ix1 d :=
  funext fun a => Fin.ext (by match a with | ⟨0, _⟩ => rfl)
theorem idx48 (e : Fin 150000) (d : Fin 128) : idx_main_v47 (idx_main_v48 (ix2 e d)) = ix1 d :=
  funext fun a => Fin.ext (by match a with | ⟨0, _⟩ => rfl)

section Enc
variable (w b : Arr2 1 128)
  (hw : ∀ c : Fin 128, w (ix2 (0 : Fin 1) c) = x6 (ix1 c)) (hb : ∀ c : Fin 128, b (ix2 (0 : Fin 1) c) = x7 (ix1 c))
include hw hb

/-- The source direction's time encoding: the cosine of relative time times frequency plus phase. -/
theorem v17_eq (e : Fin 150000) (d : Fin 128) :
    val_main_v17 (F := Ideal) x1 x2 x4 x6 x7 (ix2 e d)
      = Ideal.cos (val_main_v9 (F := Ideal) x1 x2 x4 (ix2 e (0 : Fin 1)) * w (ix2 (0 : Fin 1) d) + b (ix2 (0 : Fin 1) d)) := by
  rw [val_main_v17_apply, val_main_v16_apply, val_main_v13_apply, val_main_v11_apply, val_main_v12_apply,
    val_main_v10_apply, val_main_v15_apply, val_main_v14_apply, idx11, idx12, idx15, hw, hb]
  rfl

/-- The destination direction's time encoding. -/
theorem v50_eq (e : Fin 150000) (d : Fin 128) :
    val_main_v50 (F := Ideal) x1 x3 x4 x6 x7 (ix2 e d)
      = Ideal.cos (val_main_v42 (F := Ideal) x1 x3 x4 (ix2 e (0 : Fin 1)) * w (ix2 (0 : Fin 1) d) + b (ix2 (0 : Fin 1) d)) := by
  rw [val_main_v50_apply, val_main_v49_apply, val_main_v46_apply, val_main_v44_apply, val_main_v45_apply,
    val_main_v43_apply, val_main_v48_apply, val_main_v47_apply, idx44, idx45, idx48, hw, hb]
  rfl

end Enc

/-! The four pieces of a message row, read by the column's span. -/

theorem v32_piece0 (e : Fin 150000) (c : Fin 512) (h0 : c.val < 128) :
    val_main_v32 (F := Ideal) x0 x1 x2 x3 x4 x5 x6 x7 (ix2 e c) = val_main_v24 (F := Ideal) x0 x2 (ix2 e (⟨c.val, h0⟩ : Fin 128)) := by
  unfold val_main_v32
  exact concatenate_apply_piece (t := S150000x512) 1 _ _ _ 0 (by show (0 : Nat) < 4; decide) S150000x128 (val_main_v24 (F := Ideal) x0 x2) (by rfl) (by rfl) 0 (by rfl) _
    (fun b hb => by match b with | ⟨0, _⟩ => rfl | ⟨1, _⟩ => exact absurd rfl hb)
    (by show 0 + c.val = c.val; omega)

theorem v32_piece1 (e : Fin 150000) (c : Fin 512) (h0 : ¬c.val < 128) (h1 : c.val < 256) :
    val_main_v32 (F := Ideal) x0 x1 x2 x3 x4 x5 x6 x7 (ix2 e c)
      = val_main_v31 (F := Ideal) x0 x3 (ix2 e (⟨c.val - 128, by omega⟩ : Fin 128)) := by
  unfold val_main_v32
  exact concatenate_apply_piece (t := S150000x512) 1 _ _ _ 1 (by show (1 : Nat) < 4; decide) S150000x128 (val_main_v31 (F := Ideal) x0 x3) (by rfl) (by rfl) 128 (by rfl) _
    (fun b hb => by match b with | ⟨0, _⟩ => rfl | ⟨1, _⟩ => exact absurd rfl hb)
    (by show 128 + (c.val - 128) = c.val; omega)

theorem v32_piece2 (e : Fin 150000) (c : Fin 512) (h1 : ¬c.val < 256) (h2 : c.val < 384) :
    val_main_v32 (F := Ideal) x0 x1 x2 x3 x4 x5 x6 x7 (ix2 e c) = x5 (ix2 e (⟨c.val - 256, by omega⟩ : Fin 128)) := by
  unfold val_main_v32
  exact concatenate_apply_piece (t := S150000x512) 1 _ _ _ 2 (by show (2 : Nat) < 4; decide) S150000x128 x5 (by rfl) (by rfl) 256 (by rfl) _
    (fun b hb => by match b with | ⟨0, _⟩ => rfl | ⟨1, _⟩ => exact absurd rfl hb)
    (by show 256 + (c.val - 256) = c.val; omega)

theorem v32_piece3 (e : Fin 150000) (c : Fin 512) (h2 : ¬c.val < 384) :
    val_main_v32 (F := Ideal) x0 x1 x2 x3 x4 x5 x6 x7 (ix2 e c)
      = val_main_v17 (F := Ideal) x1 x2 x4 x6 x7 (ix2 e (⟨c.val - 384, by omega⟩ : Fin 128)) := by
  unfold val_main_v32
  exact concatenate_apply_piece (t := S150000x512) 1 _ _ _ 3 (by show (3 : Nat) < 4; decide) S150000x128 (val_main_v17 (F := Ideal) x1 x2 x4 x6 x7) (by rfl) (by rfl) 384 (by rfl) _
    (fun b hb => by match b with | ⟨0, _⟩ => rfl | ⟨1, _⟩ => exact absurd rfl hb)
    (by show 384 + (c.val - 384) = c.val; omega)

theorem v65_piece0 (e : Fin 150000) (c : Fin 512) (h0 : c.val < 128) :
    val_main_v65 (F := Ideal) x0 x1 x2 x3 x4 x5 x6 x7 (ix2 e c) = val_main_v31 (F := Ideal) x0 x3 (ix2 e (⟨c.val, h0⟩ : Fin 128)) := by
  unfold val_main_v65
  rw [v57_eq_v31, v64_eq_v24]
  exact concatenate_apply_piece (t := S150000x512) 1 _ _ _ 0 (by show (0 : Nat) < 4; decide) S150000x128 (val_main_v31 (F := Ideal) x0 x3) (by rfl) (by rfl) 0 (by rfl) _
    (fun b hb => by match b with | ⟨0, _⟩ => rfl | ⟨1, _⟩ => exact absurd rfl hb)
    (by show 0 + c.val = c.val; omega)

theorem v65_piece1 (e : Fin 150000) (c : Fin 512) (h0 : ¬c.val < 128) (h1 : c.val < 256) :
    val_main_v65 (F := Ideal) x0 x1 x2 x3 x4 x5 x6 x7 (ix2 e c)
      = val_main_v24 (F := Ideal) x0 x2 (ix2 e (⟨c.val - 128, by omega⟩ : Fin 128)) := by
  unfold val_main_v65
  rw [v57_eq_v31, v64_eq_v24]
  exact concatenate_apply_piece (t := S150000x512) 1 _ _ _ 1 (by show (1 : Nat) < 4; decide) S150000x128 (val_main_v24 (F := Ideal) x0 x2) (by rfl) (by rfl) 128 (by rfl) _
    (fun b hb => by match b with | ⟨0, _⟩ => rfl | ⟨1, _⟩ => exact absurd rfl hb)
    (by show 128 + (c.val - 128) = c.val; omega)

theorem v65_piece2 (e : Fin 150000) (c : Fin 512) (h1 : ¬c.val < 256) (h2 : c.val < 384) :
    val_main_v65 (F := Ideal) x0 x1 x2 x3 x4 x5 x6 x7 (ix2 e c) = x5 (ix2 e (⟨c.val - 256, by omega⟩ : Fin 128)) := by
  unfold val_main_v65
  exact concatenate_apply_piece (t := S150000x512) 1 _ _ _ 2 (by show (2 : Nat) < 4; decide) S150000x128 x5 (by rfl) (by rfl) 256 (by rfl) _
    (fun b hb => by match b with | ⟨0, _⟩ => rfl | ⟨1, _⟩ => exact absurd rfl hb)
    (by show 256 + (c.val - 256) = c.val; omega)

theorem v65_piece3 (e : Fin 150000) (c : Fin 512) (h2 : ¬c.val < 384) :
    val_main_v65 (F := Ideal) x0 x1 x2 x3 x4 x5 x6 x7 (ix2 e c)
      = val_main_v50 (F := Ideal) x1 x3 x4 x6 x7 (ix2 e (⟨c.val - 384, by omega⟩ : Fin 128)) := by
  unfold val_main_v65
  exact concatenate_apply_piece (t := S150000x512) 1 _ _ _ 3 (by show (3 : Nat) < 4; decide) S150000x128 (val_main_v50 (F := Ideal) x1 x3 x4 x6 x7) (by rfl) (by rfl) 384 (by rfl) _
    (fun b hb => by match b with | ⟨0, _⟩ => rfl | ⟨1, _⟩ => exact absurd rfl hb)
    (by show 384 + (c.val - 384) = c.val; omega)

/-- The upper half of the message matrix is the source direction's rows. -/
theorem v67_left (r : Fin 300000) (c : Fin 512) (h : r.val < 150000) :
    val_main_v67 (F := Ideal) x0 x1 x2 x3 x4 x5 x6 x7 (ix2 r c)
      = val_main_v32 (F := Ideal) x0 x1 x2 x3 x4 x5 x6 x7 (ix2 (⟨r.val, h⟩ : Fin 150000) c) := by
  unfold val_main_v67
  exact concatenate_pair_apply_left (t := S300000x512) 0 _ _ _ _ (by rfl) _ (fun b => by match b with | ⟨0, _⟩ => rfl | ⟨1, _⟩ => rfl)

/-- The lower half is the destination direction's rows. -/
theorem v67_right (r : Fin 300000) (c : Fin 512) (h : ¬r.val < 150000) :
    val_main_v67 (F := Ideal) x0 x1 x2 x3 x4 x5 x6 x7 (ix2 r c)
      = val_main_v65 (F := Ideal) x0 x1 x2 x3 x4 x5 x6 x7 (ix2 (⟨r.val - 150000, by omega⟩ : Fin 150000) c) := by
  unfold val_main_v67
  exact concatenate_pair_apply_right (t := S300000x512) 0 _ _ _ _ (by rfl) (by rfl) _
    (fun b hb => by match b with | ⟨0, _⟩ => exact absurd rfl hb | ⟨1, _⟩ => rfl)
    (by show r.val - 150000 + 150000 = r.val; omega)

section Rows
variable (w b : Arr2 1 128)
  (hw : ∀ c : Fin 128, w (ix2 (0 : Fin 1) c) = x6 (ix1 c)) (hb : ∀ c : Fin 128, b (ix2 (0 : Fin 1) c) = x7 (ix1 c))
include hw hb

/-- A source-direction row is the specification's message row. -/
theorem v32_eq_msgRow (e : Fin 150000) (c : Fin 512) :
    val_main_v32 (F := Ideal) x0 x1 x2 x3 x4 x5 x6 x7 (ix2 e c)
      = msgRow (val_main_v24 (F := Ideal) x0 x2) (val_main_v31 (F := Ideal) x0 x3) x5 (val_main_v9 (F := Ideal) x1 x2 x4) w b e c := by
  unfold msgRow
  by_cases h0 : c.val < 128
  · rw [dif_pos h0]; exact v32_piece0 x0 x1 x2 x3 x4 x5 x6 x7 e c h0
  · rw [dif_neg h0]
    by_cases h1 : c.val < 256
    · rw [dif_pos h1]; exact v32_piece1 x0 x1 x2 x3 x4 x5 x6 x7 e c h0 h1
    · rw [dif_neg h1]
      by_cases h2 : c.val < 384
      · rw [dif_pos h2]; exact v32_piece2 x0 x1 x2 x3 x4 x5 x6 x7 e c h1 h2
      · rw [dif_neg h2, v32_piece3 x0 x1 x2 x3 x4 x5 x6 x7 e c h2]
        exact v17_eq x1 x2 x4 x6 x7 w b hw hb e _

/-- A destination-direction row is the specification's message row with the two memories exchanged. -/
theorem v65_eq_msgRow (e : Fin 150000) (c : Fin 512) :
    val_main_v65 (F := Ideal) x0 x1 x2 x3 x4 x5 x6 x7 (ix2 e c)
      = msgRow (val_main_v31 (F := Ideal) x0 x3) (val_main_v24 (F := Ideal) x0 x2) x5 (val_main_v42 (F := Ideal) x1 x3 x4) w b e c := by
  unfold msgRow
  by_cases h0 : c.val < 128
  · rw [dif_pos h0]; exact v65_piece0 x0 x1 x2 x3 x4 x5 x6 x7 e c h0
  · rw [dif_neg h0]
    by_cases h1 : c.val < 256
    · rw [dif_pos h1]; exact v65_piece1 x0 x1 x2 x3 x4 x5 x6 x7 e c h0 h1
    · rw [dif_neg h1]
      by_cases h2 : c.val < 384
      · rw [dif_pos h2]; exact v65_piece2 x0 x1 x2 x3 x4 x5 x6 x7 e c h1 h2
      · rw [dif_neg h2, v65_piece3 x0 x1 x2 x3 x4 x5 x6 x7 e c h2]
        exact v50_eq x1 x3 x4 x6 x7 w b hw hb e _

end Rows

end Msg

/-- The message matrix of the specification at an index given by its coordinates. -/
theorem msg_apply (mS mD raw : Arr2 150000 128) (tS tD : Arr2 150000 1) (w b : Arr2 1 128) (r : Fin 300000) (c : Fin 512) :
    msg mS mD raw tS tD w b (ix2 r c)
      = if h : r.val < 150000 then msgRow mS mD raw tS w b ⟨r.val, h⟩ c
        else msgRow mD mS raw tD w b ⟨r.val - 150000, by omega⟩ c := rfl

/-- **The reference's message matrix is the message function**: of the two gathered memories, the raw messages, the two
    relative-time columns, and the frequency and phase rows. -/
theorem v67_eq_msg (x0 : (⟨S200000x128, .f32⟩ : BufTy).Contents (Elt Ideal)) (x1 : (⟨S200000, .i32⟩ : BufTy).Contents (Elt Ideal))
    (x2 x3 x4 : (⟨S150000, .i32⟩ : BufTy).Contents (Elt Ideal)) (x5 : (⟨S150000x128, .f32⟩ : BufTy).Contents (Elt Ideal))
    (x6 x7 : (⟨S128, .f32⟩ : BufTy).Contents (Elt Ideal)) (w b : Cert.Tgn.Arr2 1 128)
    (hw : ∀ c : Fin 128, w (ix2 (0 : Fin 1) c) = x6 (ix1 c)) (hb : ∀ c : Fin 128, b (ix2 (0 : Fin 1) c) = x7 (ix1 c)) :
    val_main_v67 (F := Ideal) x0 x1 x2 x3 x4 x5 x6 x7
      = Cert.Tgn.msg (val_main_v24 (F := Ideal) x0 x2) (val_main_v31 (F := Ideal) x0 x3) x5
          (val_main_v9 (F := Ideal) x1 x2 x4) (val_main_v42 (F := Ideal) x1 x3 x4) w b := by
  funext j
  obtain ⟨r, c, rfl⟩ : ∃ (r : Fin 300000) (c : Fin 512), j = ix2 r c := ⟨j 0, j 1, eq_ix2 j⟩
  rw [msg_apply]
  by_cases h : r.val < 150000
  · rw [dif_pos h, v67_left x0 x1 x2 x3 x4 x5 x6 x7 r c h]
    exact v32_eq_msgRow x0 x1 x2 x3 x4 x5 x6 x7 w b hw hb _ c
  · rw [dif_neg h, v67_right x0 x1 x2 x3 x4 x5 x6 x7 r c h]
    exact v65_eq_msgRow x0 x1 x2 x3 x4 x5 x6 x7 w b hw hb _ c

/-! ## The gated update -/

section Gru

variable (x0 : (⟨S200000x128, .f32⟩ : BufTy).Contents (Elt Ideal)) (x1 : (⟨S200000, .i32⟩ : BufTy).Contents (Elt Ideal))
  (x2 x3 x4 : (⟨S150000, .i32⟩ : BufTy).Contents (Elt Ideal)) (x5 : (⟨S150000x128, .f32⟩ : BufTy).Contents (Elt Ideal))
  (x6 x7 : (⟨S128, .f32⟩ : BufTy).Contents (Elt Ideal)) (x8 : (⟨S384x512, .f32⟩ : BufTy).Contents (Elt Ideal))
  (x9 : (⟨S384x128, .f32⟩ : BufTy).Contents (Elt Ideal)) (x10 x11 : (⟨S384, .f32⟩ : BufTy).Contents (Elt Ideal))

/-- The left operand of the input product is read at row `r`, column `k`. -/
theorem lidx82 (r : Fin 200000) (j : Fin 384) (k : Fin 512) : lidx_main_v82 (ix2 r j) k = ix2 r k :=
  funext fun a => Fin.ext (by match a with | ⟨0, _⟩ => rfl | ⟨1, _⟩ => rfl)
/-- The right operand of the input product is read at row `k`, column `j`. -/
theorem ridx82 (r : Fin 200000) (j : Fin 384) (k : Fin 512) : ridx_main_v82 (ix2 r j) k = ix2 k j :=
  funext fun a => Fin.ext (by match a with | ⟨0, _⟩ => rfl | ⟨1, _⟩ => rfl)
/-- The transposed input weights at `(k, j)` are the weights at `(j, k)`. -/
theorem idx81 (k : Fin 512) (j : Fin 384) : idx_main_v81 (ix2 k j) = ix2 j k :=
  funext fun a => Fin.ext (by match a with | ⟨0, _⟩ => rfl | ⟨1, _⟩ => rfl)
/-- The count column broadcast along a row is read at the row. -/
theorem idx79 (r : Fin 200000) (k : Fin 512) : idx_main_v78 (idx_main_v79 (ix2 r k)) = ix1 r :=
  funext fun a => Fin.ext (by match a with | ⟨0, _⟩ => rfl)
/-- The input bias broadcast along the rows is read at the column. -/
theorem idx84 (r : Fin 200000) (j : Fin 384) : idx_main_v83 (idx_main_v84 (ix2 r j)) = ix1 j :=
  funext fun a => Fin.ext (by match a with | ⟨0, _⟩ => rfl)

/-- The mean message of row `r` at entry `k`. -/
theorem v80_eq_aggr (cnt : Arr2 200000 1)
    (hc : ∀ r : Fin 200000, cnt (ix2 r (0 : Fin 1)) = val_main_v75 (F := Ideal) x2 x3 (ix1 r))
    (r : Fin 200000) (k : Fin 512) :
    val_main_v80 (F := Ideal) x0 x1 x2 x3 x4 x5 x6 x7 (ix2 r k)
      = aggr (val_main_v71 (F := Ideal) x0 x1 x2 x3 x4 x5 x6 x7) cnt r k := by
  rw [val_main_v80_apply, val_main_v79_apply, val_main_v78_apply, val_main_v77_apply, val_main_v76_apply,
    val_main_cst_13_apply, idx79]
  unfold aggr
  rw [hc]
  rfl

/-- The input gates' pre-activations. -/
theorem v85_eq_gi (cnt : Arr2 200000 1) (wihT : Arr2 512 384)
    (hc : ∀ r : Fin 200000, cnt (ix2 r (0 : Fin 1)) = val_main_v75 (F := Ideal) x2 x3 (ix1 r))
    (hwi : ∀ (k : Fin 512) (j : Fin 384), wihT (ix2 k j) = x8 (ix2 j k))
    (r : Fin 200000) (j : Fin 384) :
    val_main_v85 (F := Ideal) x0 x1 x2 x3 x4 x5 x6 x7 x8 x10 (ix2 r j)
      = gi (val_main_v71 (F := Ideal) x0 x1 x2 x3 x4 x5 x6 x7) cnt wihT x10 r j := by
  rw [val_main_v85_apply, val_main_v82_apply, val_main_v84_apply, val_main_v83_apply, idx84]
  unfold gi
  rw [Ideal.addf_def]
  refine congrArg₂ (· + ·) (Finset.sum_congr rfl fun k _ => ?_) rfl
  rw [lidx82, ridx82, val_main_v81_apply, idx81, v80_eq_aggr x0 x1 x2 x3 x4 x5 x6 x7 cnt hc, hwi]

/-- The left operand of the hidden product is read at row `r`, column `k`. -/
theorem lidx87 (r : Fin 200000) (j : Fin 384) (k : Fin 128) : lidx_main_v87 (ix2 r j) k = ix2 r k :=
  funext fun a => Fin.ext (by match a with | ⟨0, _⟩ => rfl | ⟨1, _⟩ => rfl)
/-- The right operand of the hidden product is read at row `k`, column `j`. -/
theorem ridx87 (r : Fin 200000) (j : Fin 384) (k : Fin 128) : ridx_main_v87 (ix2 r j) k = ix2 k j :=
  funext fun a => Fin.ext (by match a with | ⟨0, _⟩ => rfl | ⟨1, _⟩ => rfl)
/-- The transposed hidden weights at `(k, j)` are the weights at `(j, k)`. -/
theorem idx86 (k : Fin 128) (j : Fin 384) : idx_main_v86 (ix2 k j) = ix2 j k :=
  funext fun a => Fin.ext (by match a with | ⟨0, _⟩ => rfl | ⟨1, _⟩ => rfl)
/-- The hidden bias broadcast along the rows is read at the column. -/
theorem idx89 (r : Fin 200000) (j : Fin 384) : idx_main_v88 (idx_main_v89 (ix2 r j)) = ix1 j :=
  funext fun a => Fin.ext (by match a with | ⟨0, _⟩ => rfl)

/-- The hidden gates' pre-activations. -/
theorem v90_eq_gh (whhT : Arr2 128 384)
    (hwh : ∀ (k : Fin 128) (j : Fin 384), whhT (ix2 k j) = x9 (ix2 j k))
    (r : Fin 200000) (j : Fin 384) :
    val_main_v90 (F := Ideal) x0 x9 x11 (ix2 r j) = gh x0 whhT x11 r j := by
  rw [val_main_v90_apply, val_main_v87_apply, val_main_v89_apply, val_main_v88_apply, idx89]
  unfold gh
  rw [Ideal.addf_def]
  refine congrArg₂ (· + ·) (Finset.sum_congr rfl fun k _ => ?_) rfl
  rw [lidx87, ridx87, val_main_v86_apply, idx86, hwh]

/-! The six slices: columns `c`, `c + 128`, `c + 256` of the two pre-activation matrices. -/
theorem idx91 (r : Fin 200000) (c : Fin 128) : idx_main_v91 (ix2 r c) = ix2 r (⟨c.val, by omega⟩ : Fin 384) :=
  funext fun a => Fin.ext (by match a with | ⟨0, _⟩ => rfl | ⟨1, _⟩ => rfl)
theorem idx92 (r : Fin 200000) (c : Fin 128) : idx_main_v92 (ix2 r c) = ix2 r (⟨c.val + 128, by omega⟩ : Fin 384) :=
  funext fun a => Fin.ext (by match a with | ⟨0, _⟩ => rfl | ⟨1, _⟩ => exact Nat.add_comm _ _)
theorem idx93 (r : Fin 200000) (c : Fin 128) : idx_main_v93 (ix2 r c) = ix2 r (⟨c.val + 256, by omega⟩ : Fin 384) :=
  funext fun a => Fin.ext (by match a with | ⟨0, _⟩ => rfl | ⟨1, _⟩ => exact Nat.add_comm _ _)
theorem idx94 (r : Fin 200000) (c : Fin 128) : idx_main_v94 (ix2 r c) = ix2 r (⟨c.val, by omega⟩ : Fin 384) :=
  funext fun a => Fin.ext (by match a with | ⟨0, _⟩ => rfl | ⟨1, _⟩ => rfl)
theorem idx95 (r : Fin 200000) (c : Fin 128) : idx_main_v95 (ix2 r c) = ix2 r (⟨c.val + 128, by omega⟩ : Fin 384) :=
  funext fun a => Fin.ext (by match a with | ⟨0, _⟩ => rfl | ⟨1, _⟩ => exact Nat.add_comm _ _)
theorem idx96 (r : Fin 200000) (c : Fin 128) : idx_main_v96 (ix2 r c) = ix2 r (⟨c.val + 256, by omega⟩ : Fin 384) :=
  funext fun a => Fin.ext (by match a with | ⟨0, _⟩ => rfl | ⟨1, _⟩ => exact Nat.add_comm _ _)

/-- The logistic function spelt out with the word of one: `1 / (1 + exp (-x))`. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

section Gates
variable (cnt : Arr2 200000 1) (wihT : Arr2 512 384) (whhT : Arr2 128 384)
  (hc : ∀ r : Fin 200000, cnt (ix2 r (0 : Fin 1)) = val_main_v75 (F := Ideal) x2 x3 (ix1 r))
  (hwi : ∀ (k : Fin 512) (j : Fin 384), wihT (ix2 k j) = x8 (ix2 j k))
  (hwh : ∀ (k : Fin 128) (j : Fin 384), whhT (ix2 k j) = x9 (ix2 j k))
include hc hwi hwh

/-- The reset gate. -/
theorem v103_eq (r : Fin 200000) (c : Fin 128) :
    val_main_v103 (F := Ideal) x0 x1 x2 x3 x4 x5 x6 x7 x8 x9 x10 x11 (ix2 r c)
      = Ideal.logistic (gi (val_main_v71 (F := Ideal) x0 x1 x2 x3 x4 x5 x6 x7) cnt wihT x10 r ⟨c.val, by omega⟩
          + gh x0 whhT x11 r ⟨c.val, by omega⟩) := by
  rw [val_main_v103_apply, val_main_v102_apply, val_main_cst_15_apply, val_main_v101_apply, val_main_v100_apply,
    val_main_cst_14_apply, val_main_v99_apply, val_main_v98_apply, val_main_v97_apply, val_main_v91_apply,
    val_main_v94_apply, idx91, idx94, v85_eq_gi x0 x1 x2 x3 x4 x5 x6 x7 x8 x10 cnt wihT hc hwi,
    v90_eq_gh x0 x9 x11 whhT hwh]
  exact logistic_spelt _

/-- The update gate. -/
theorem v110_eq (r : Fin 200000) (c : Fin 128) :
    val_main_v110 (F := Ideal) x0 x1 x2 x3 x4 x5 x6 x7 x8 x9 x10 x11 (ix2 r c)
      = Ideal.logistic (gi (val_main_v71 (F := Ideal) x0 x1 x2 x3 x4 x5 x6 x7) cnt wihT x10 r ⟨c.val + 128, by omega⟩
          + gh x0 whhT x11 r ⟨c.val + 128, by omega⟩) := by
  rw [val_main_v110_apply, val_main_v109_apply, val_main_cst_17_apply, val_main_v108_apply, val_main_v107_apply,
    val_main_cst_16_apply, val_main_v106_apply, val_main_v105_apply, val_main_v104_apply, val_main_v92_apply,
    val_main_v95_apply, idx92, idx95, v85_eq_gi x0 x1 x2 x3 x4 x5 x6 x7 x8 x10 cnt wihT hc hwi,
    v90_eq_gh x0 x9 x11 whhT hwh]
  exact logistic_spelt _

/-- The candidate. -/
theorem v113_eq (r : Fin 200000) (c : Fin 128) :
    val_main_v113 (F := Ideal) x0 x1 x2 x3 x4 x5 x6 x7 x8 x9 x10 x11 (ix2 r c)
      = Ideal.tanh (gi (val_main_v71 (F := Ideal) x0 x1 x2 x3 x4 x5 x6 x7) cnt wihT x10 r ⟨c.val + 256, by omega⟩
          + Ideal.logistic (gi (val_main_v71 (F := Ideal) x0 x1 x2 x3 x4 x5 x6 x7) cnt wihT x10 r ⟨c.val, by omega⟩
              + gh x0 whhT x11 r ⟨c.val, by omega⟩)
            * gh x0 whhT x11 r ⟨c.val + 256, by omega⟩) := by
  rw [val_main_v113_apply, val_main_v112_apply, val_main_v93_apply, val_main_v111_apply, val_main_v96_apply, idx93, idx96,
    v85_eq_gi x0 x1 x2 x3 x4 x5 x6 x7 x8 x10 cnt wihT hc hwi, v90_eq_gh x0 x9 x11 whhT hwh,
    v103_eq x0 x1 x2 x3 x4 x5 x6 x7 x8 x9 x10 x11 cnt wihT whhT hc hwi hwh]
  rfl

end Gates

end Gru

/-- The gated update of the specification at an index given by its coordinates. -/
theorem gru_apply (sums : Arr2 200000 512) (cnt : Arr2 200000 1) (mem : Arr2 200000 128) (wihT : Arr2 512 384)
    (whhT : Arr2 128 384) (bih bhh : Arr1 384) (r : Fin 200000) (c : Fin 128) :
    gru sums cnt mem wihT whhT bih bhh (ix2 r c) = gruAt sums cnt mem wihT whhT bih bhh r c := rfl

/-- **The reference's last float stage is the gated update**: from the summed messages, the counts, the memory, the
    transposed weights and the biases. -/
theorem v118_eq_gru (x0 : (⟨S200000x128, .f32⟩ : BufTy).Contents (Elt Ideal)) (x1 : (⟨S200000, .i32⟩ : BufTy).Contents (Elt Ideal))
    (x2 x3 x4 : (⟨S150000, .i32⟩ : BufTy).Contents (Elt Ideal)) (x5 : (⟨S150000x128, .f32⟩ : BufTy).Contents (Elt Ideal))
    (x6 x7 : (⟨S128, .f32⟩ : BufTy).Contents (Elt Ideal)) (x8 : (⟨S384x512, .f32⟩ : BufTy).Contents (Elt Ideal))
    (x9 : (⟨S384x128, .f32⟩ : BufTy).Contents (Elt Ideal)) (x10 x11 : (⟨S384, .f32⟩ : BufTy).Contents (Elt Ideal))
    (cnt : Cert.Tgn.Arr2 200000 1) (wihT : Cert.Tgn.Arr2 512 384) (whhT : Cert.Tgn.Arr2 128 384)
    (hc : ∀ r : Fin 200000, cnt (ix2 r (0 : Fin 1)) = val_main_v75 (F := Ideal) x2 x3 (ix1 r))
    (hwi : ∀ (k : Fin 512) (j : Fin 384), wihT (ix2 k j) = x8 (ix2 j k))
    (hwh : ∀ (k : Fin 128) (j : Fin 384), whhT (ix2 k j) = x9 (ix2 j k)) :
    val_main_v118 (F := Ideal) x0 x1 x2 x3 x4 x5 x6 x7 x8 x9 x10 x11
      = Cert.Tgn.gru (val_main_v71 (F := Ideal) x0 x1 x2 x3 x4 x5 x6 x7) cnt x0 wihT whhT x10 x11 := by
  funext i
  obtain ⟨r, c, rfl⟩ : ∃ (r : Fin 200000) (c : Fin 128), i = ix2 r c := ⟨i 0, i 1, eq_ix2 i⟩
  rw [gru_apply, val_main_v118_apply, val_main_v116_apply, val_main_v117_apply, val_main_v115_apply, val_main_v114_apply,
    val_main_cst_18_apply, v113_eq x0 x1 x2 x3 x4 x5 x6 x7 x8 x9 x10 x11 cnt wihT whhT hc hwi hwh,
    v110_eq x0 x1 x2 x3 x4 x5 x6 x7 x8 x9 x10 x11 cnt wihT whhT hc hwi hwh]
  rfl

end Cert.ReferenceIdeal.RefValue

end
-- ==== Proof.Bridge.lean ====
/-
  The kernel's two results are the reference's two results, as functions of the argument arrays.

  First result. The second kernel leaves the gated update `Cert.Tgn.gru` of the arrays it finds: the summed messages, the
  count column, the memory, the two transposed weight matrices and the two biases. The summed messages are the scatter-add
  of what the first kernel leaves, and that is the message matrix `Cert.Tgn.msg` of the gathered memories, the raw
  messages, the two time columns and the two time-encoding parameters — the reference's own concatenated message matrix.
  So the summed messages are the reference's, the count column is the reference's counts kept as a column, the narrowed
  transposed weights are the transposed weights (narrowing is the identity on extended reals), and the gated update of
  these is the reference's first result.
  Second result. The same host operations on the same arguments: the reference's own term.
-/
import proofs.«117648_j63496796504572_2_alg».proof.Proof.Stages
import proofs.«117648_j63496796504572_2_alg».proof.Proof.Region0
import proofs.«117648_j63496796504572_2_alg».proof.Proof.Region1
import proofs.«117648_j63496796504572_2_alg».proof.Proof.RefValue

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx Cert.Tgn
open Cert.ReferenceIdeal.Read (val_main_v24 val_main_v31 val_main_v9 val_main_v42 val_main_v67 val_main_v69 val_main_v70 val_main_v71
  val_main_v75 val_main_v81 val_main_v86 val_main_v118 val_main_v126)

variable (m : (ℓ : Loc nD τ sig) → Buf (Elt Ideal) ℓ) (ρ : Dev nD → PrngReg)

/-- What the first kernel leaves is the reference's message matrix. -/
theorem messages_eq (c : Dev nD) : (dat0 (V1 m ρ) c).arrAt 7 cfg0.N
    = val_main_v67 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [final0 (V1 m ρ) c]
  show msg (W1 m ρ c (Proc.devRef .tc main_v6)) (W1 m ρ c (Proc.devRef .tc main_v13)) (W1 m ρ c (Proc.devRef .tc main_arg5))
    (W1 m ρ c (Proc.devRef .tc main_v30)) (W1 m ρ c (Proc.devRef .tc main_v33)) (W1 m ρ c (Proc.devRef .tc main_v34))
    (W1 m ρ c (Proc.devRef .tc main_v35)) = _
  rw [W1_v6, W1_v13, W1_arg5, W1_v30, W1_v33]
  exact (Cert.ReferenceIdeal.RefValue.v67_eq_msg _ _ _ _ _ _ _ _ _ _ (W1_v34 m ρ c) (W1_v35 m ρ c)).symm

/-- The summed messages the second kernel finds are the reference's. -/
theorem sums_eq (c : Dev nD) : W3 m ρ c (Proc.devRef .tc main_v41)
    = val_main_v71 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [W3_v41, messages_eq]
  rfl

/-- THE FIRST RESULT is the reference's. -/
theorem result1 (c : Dev nD) : W5 m ρ c (Proc.devRef .tc main_v51)
    = val_main_v118 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) := by
  rw [W5_v51, final1 (V3 m ρ) c]
  show gru (W3 m ρ c (Proc.devRef .tc main_v41)) (W3 m ρ c (Proc.devRef .tc main_v46)) (W3 m ρ c (Proc.devRef .tc main_arg0))
    (W3 m ρ c (Proc.devRef .tc main_v48)) (W3 m ρ c (Proc.devRef .tc main_v50)) (W3 m ρ c (Proc.devRef .tc main_arg10))
    (W3 m ρ c (Proc.devRef .tc main_arg11)) = _
  rw [sums_eq, W3_arg0, W3_arg10, W3_arg11]
  refine (Cert.ReferenceIdeal.RefValue.v118_eq_gru _ _ _ _ _ _ _ _ _ _ _ _ _ _ _ ?_ ?_ ?_).symm
  · intro r
    rw [W3_v46]
    exact broadcastInDim_apply _ bcast_S200000_S200000x1_0 _ (ix2 r (0 : Fin 1)) (ix1 r) (fun a => match a with
      | ⟨0, _⟩ => by show r.val = if (200000 : Nat) = 1 then 0 else r.val; rw [if_neg (by decide)])
  · intro k j
    rw [W3_v48]
    exact transpose_ix2_apply _ _ k j
  · intro k j
    rw [W3_v50]
    exact transpose_ix2_apply _ _ k j

/-- THE SECOND RESULT is the reference's. -/
theorem result2 (c : Dev nD) : W5 m ρ c (Proc.devRef .tc main_v59)
    = val_main_v126 (F := Ideal) (m ((c : Thread nD τ).loc main_arg2)) (m ((c : Thread nD τ).loc main_arg3))
        (m ((c : Thread nD τ).loc main_arg4)) := W5_v59 m ρ c

end Cert.KernelIdeal.Hand

end
-- ==== Proof.lean ====
/-
  The certificate: a temporal-graph memory update written as two kernels among host operations, against its plain reference.

  Both programs form, for each of 150000 events, two message rows (memory of the source, memory of the destination, raw
  message, cosine time encoding — and the same with the two nodes exchanged), scatter-add the 300000 rows and a row of ones
  at the nodes' indices, divide by `max (count, 1)`, apply one gated recurrent update to every node's memory, and scatter the
  maximum of the event times. Read on the extended reals the two programs compute the same two arrays:
  the first kernel's output array is the reference's concatenated message matrix, entry by entry; the host operations in
  between are the reference's own; the second kernel's output array is the gated update `Cert.Tgn.gru`, which is what the
  reference's operations compute entry by entry (matrix products as finite sums, the logistic gate either as one operation
  or spelt out as 1 / (1 + exp (−x)), a change of float format the identity); the last result is the same host operations on
  the same arguments. No finiteness of the inputs is used.

  The three frames: the two kernel programs by the frame certificate of their two regions (the copies of the generated
  frame modules with the first kernel's grid coordinate bound), the reference by its run. The idealization rewrote nothing.
-/
import proofs.«117648_j63496796504572_2_alg».proof.Defs
import proofs.«117648_j63496796504572_2_alg».proof.Proof.Gen.Kernel
import proofs.«117648_j63496796504572_2_alg».proof.Proof.Gen.Kernel.Skeleton
import proofs.«117648_j63496796504572_2_alg».proof.Proof.Gen.Kernel.Launch
import proofs.«117648_j63496796504572_2_alg».proof.Proof.Gen.Kernel.Points
import proofs.«117648_j63496796504572_2_alg».proof.Proof.FrameKernelP
import proofs.«117648_j63496796504572_2_alg».proof.Proof.Gen.KernelIdeal
import proofs.«117648_j63496796504572_2_alg».proof.Proof.Gen.KernelIdeal.Skeleton
import proofs.«117648_j63496796504572_2_alg».proof.Proof.Gen.KernelIdeal.Launch
import proofs.«117648_j63496796504572_2_alg».proof.Proof.Gen.KernelIdeal.Points
import proofs.«117648_j63496796504572_2_alg».proof.Proof.FrameKernelIdealP
import proofs.«117648_j63496796504572_2_alg».proof.Proof.Gen.ReferenceIdeal
import proofs.«117648_j63496796504572_2_alg».proof.Proof.Gen.ReferenceIdeal.Run
import proofs.«117648_j63496796504572_2_alg».proof.Proof.Gen.ReferenceIdeal.Read
import proofs.«117648_j63496796504572_2_alg».proof.Proof.Gen.Pre_finite_inputs
import proofs.«117648_j63496796504572_2_alg».proof.Proof.KRun
import proofs.«117648_j63496796504572_2_alg».proof.Proof.Bridge
import Idealize.ShloMosaic.Adequacy
import Idealize.ShloMosaic.Init

noncomputable section

namespace Cert.Proof

open Idealize.ShloMosaic Idealize.SL.Sem Cert.Kernel

/-- The word-level kernel program runs and keeps its arguments. -/
theorem frame_k : Cert.frame_Kernel (hKernel := Cert.Kernel.Gen.facts) (hPre_finite_inputs := Cert.Pre_finite_inputs.Gen.facts) :=
  fun m ρ _ => Cert.Kernel.GenP.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs and keeps its arguments: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments both programs end with the same two results: the reference's two terms of the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v118 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    fun c => Cert.ReferenceIdeal.Read.val_main_v126 (F := Ideal)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c =>
      ⟨(h c).1.trans (Cert.KernelIdeal.Hand.result1 m ρ c), (h c).2.1.trans (Cert.KernelIdeal.Hand.result2 m ρ c), (h c).2.2⟩)
      (Cert.KernelIdeal.Hand.run_values (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9, e10, e11⟩ := hagree c
      rw [Cert.ReferenceIdeal.Read.val_main_v118_eq, e0, e1, e2, e3, e4, e5, e6, e7, e8, e9, e10, e11]
    · obtain ⟨e0, e1, e2, e3, e4, e5, e6, e7, e8, e9, e10, e11⟩ := hagree c
      rw [Cert.ReferenceIdeal.Read.val_main_v126_eq, e2, e3, e4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
